-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x768 : Shape := ⟨2, ![10000, 768]⟩
abbrev S50000x768 : Shape := ⟨2, ![50000, 768]⟩
abbrev S768x256 : Shape := ⟨2, ![768, 256]⟩
abbrev S256 : Shape := ⟨1, ![256]⟩
abbrev S2x3x256x256 : Shape := ⟨4, ![2, 3, 256, 256]⟩
abbrev S2x256x256 : Shape := ⟨3, ![2, 256, 256]⟩
abbrev S2x256 : Shape := ⟨2, ![2, 256]⟩
abbrev S256x8 : Shape := ⟨2, ![256, 8]⟩
abbrev S8 : Shape := ⟨1, ![8]⟩
abbrev S500000 : Shape := ⟨1, ![500000]⟩
abbrev S400000 : Shape := ⟨1, ![400000]⟩
abbrev S_ : Shape := ⟨0, ![]⟩

class Facts : Prop where
  bcast_S_S10000x768 : S_.BroadcastsInDim S10000x768 (![] : Fin 0 → Fin S10000x768.rank)
  reducesTo_S10000x768_S_d0_1 : S10000x768.ReducesTo [0, 1] S_
  h_S_ : 0 < S_.numel
  bcast_S_S50000x768 : S_.BroadcastsInDim S50000x768 (![] : Fin 0 → Fin S50000x768.rank)
  reducesTo_S50000x768_S_d0_1 : S50000x768.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S2x3x256x256 : S_.BroadcastsInDim S2x3x256x256 (![] : Fin 0 → Fin S2x3x256x256.rank)
  reducesTo_S2x3x256x256_S_d0_1_2_3 : S2x3x256x256.ReducesTo [0, 1, 2, 3] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg7 : FVec F S2x256x256 .f32) (main_arg8 : FVec F S2x256 .f32) (main_arg9 : FVec F S256x8 .f32) (main_arg10 : FVec F S8 .f32) (main_v33 : IVec S_ 1) : IVec S_ 1 :=
  let main_v34 : FVec F S2x256x256 .f32 := Host.absf main_arg7
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg8
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S256x8 .f32 := Host.absf main_arg9
  let main_cst_16 : FVec F S_ .f32 := constant S_ .f32 0x7F800000#32
  let main_v45 : FVec F S256x8 .f32 := broadcastInDim S256x8 ![] bcast_S_S256x8 main_cst_16
  let main_v46 : IVec S256x8 1 := cmpf .olt main_v44 main_v45
  let main_c_17 : IVec S_ 1 := constantI S_ 1 1#1
  let main_v47 : IVec S_ 1 := (fun x v => Host.reduce IntOp.andi x v reducesTo_S256x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg4 : FVec F S768x256 .f32) (main_arg5 : FVec F S256 .f32) (main_arg6 : FVec F S2x3x256x256 .f32) (main_arg7 : FVec F S2x256x256 .f32) (main_arg8 : FVec F S2x256 .f32) (main_arg9 : FVec F S256x8 .f32) (main_arg10 : FVec F S8 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x3x256x256 .f32 := Host.absf main_arg6
  let main_cst_10 : FVec F S_ .f32 := constant S_ .f32 0x7F800000#32
  let main_v30 : FVec F S2x3x256x256 .f32 := broadcastInDim S2x3x256x256 ![] bcast_S_S2x3x256x256 main_cst_10
  let main_v31 : IVec S2x3x256x256 1 := cmpf .olt main_v29 main_v30
  let main_c_11 : IVec S_ 1 := constantI S_ 1 1#1
  let main_v32 : IVec S_ 1 := (fun x v => Host.reduce IntOp.andi x v reducesTo_S2x3x256x256_S_d0_1_2_3 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x768 .f32) (main_arg1 : FVec F S50000x768 .f32) (main_arg2 : FVec F S768x256 .f32) (main_arg3 : FVec F S256 .f32) (main_arg4 : FVec F S768x256 .f32) (main_arg5 : FVec F S256 .f32) (main_arg6 : FVec F S2x3x256x256 .f32) (main_arg7 : FVec F S2x256x256 .f32) (main_arg8 : FVec F S2x256 .f32) (main_arg9 : FVec F S256x8 .f32) (main_arg10 : FVec F S8 .f32) (main_arg11 : IVec S500000 32) (main_arg12 : IVec S500000 32) (main_arg13 : IVec S400000 32) (main_arg14 : IVec S400000 32) (main_arg15 : IVec S400000 32) (main_arg16 : IVec S400000 32) : IVec S_ 1 :=
  let main_v0 : FVec F S10000x768 .f32 := Host.absf main_arg0
  let main_cst : FVec F S_ .f32 := constant S_ .f32 0x7F800000#32
  let main_v1 : FVec F S10000x768 .f32 := broadcastInDim S10000x768 ![] bcast_S_S10000x768 main_cst
  let main_v2 : IVec S10000x768 1 := cmpf .olt main_v0 main_v1
  let main_c : IVec S_ 1 := constantI S_ 1 1#1
  let main_v3 : IVec S_ 1 := (fun x v => Host.reduce IntOp.andi x v reducesTo_S10000x768_S_d0_1 h_S_) main_v2 main_c
  let main_v4 : FVec F S50000x768 .f32 := Host.absf main_arg1
  let main_cst_0 : FVec F S_ .f32 := constant S_ .f32 0x7F800000#32
  let main_v5 : FVec F S50000x768 .f32 := broadcastInDim S50000x768 ![] bcast_S_S50000x768 main_cst_0
  let main_v6 : IVec S50000x768 1 := cmpf .olt main_v4 main_v5
  let main_c_1 : IVec S_ 1 := constantI S_ 1 1#1
  let main_v7 : IVec S_ 1 := (fun x v => Host.reduce IntOp.andi x v reducesTo_S50000x768_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_v13 main_v16
-- ==== Kernel.lean ====
abbrev S10000x768 : Shape := ⟨2, ![10000, 768]⟩
abbrev S50000x768 : Shape := ⟨2, ![50000, 768]⟩
abbrev S768x256 : Shape := ⟨2, ![768, 256]⟩
abbrev S256 : Shape := ⟨1, ![256]⟩
abbrev S2x3x256x256 : Shape := ⟨4, ![2, 3, 256, 256]⟩
abbrev S2x256x256 : Shape := ⟨3, ![2, 256, 256]⟩
abbrev S2x256 : Shape := ⟨2, ![2, 256]⟩
abbrev S256x8 : Shape := ⟨2, ![256, 8]⟩
abbrev S8 : Shape := ⟨1, ![8]⟩
abbrev S500000 : Shape := ⟨1, ![500000]⟩
abbrev S400000 : Shape := ⟨1, ![400000]⟩
abbrev S1x256 : Shape := ⟨2, ![1, 256]⟩
abbrev S10000x256 : Shape := ⟨2, ![10000, 256]⟩
abbrev S1000x768 : Shape := ⟨2, ![1000, 768]⟩
abbrev S1000x256 : Shape := ⟨2, ![1000, 256]⟩
abbrev S50000x256 : Shape := ⟨2, ![50000, 256]⟩
abbrev S60000x256 : Shape := ⟨2, ![60000, 256]⟩
abbrev S_ : Shape := ⟨0, ![]⟩
abbrev S60000 : Shape := ⟨1, ![60000]⟩
abbrev S500000x1 : Shape := ⟨2, ![500000, 1]⟩
abbrev S60000x1 : Shape := ⟨2, ![60000, 1]⟩
abbrev S400000x1 : Shape := ⟨2, ![400000, 1]⟩
abbrev S500000x256 : Shape := ⟨2, ![500000, 256]⟩
abbrev S400000x256 : Shape := ⟨2, ![400000, 256]⟩
abbrev S1x256x256 : Shape := ⟨3, ![1, 256, 256]⟩
abbrev S256x256 : Shape := ⟨2, ![256, 256]⟩
abbrev S1x1x256x256 : Shape := ⟨4, ![1, 1, 256, 256]⟩
abbrev S2000x256 : Shape := ⟨2, ![2000, 256]⟩
abbrev S256x128 : Shape := ⟨2, ![256, 128]⟩
abbrev S128 : Shape := ⟨1, ![128]⟩
abbrev S1x128 : Shape := ⟨2, ![1, 128]⟩
abbrev S10000x128 : Shape := ⟨2, ![10000, 128]⟩
abbrev S1000x128 : Shape := ⟨2, ![1000, 128]⟩
abbrev S10000x8 : Shape := ⟨2, ![10000, 8]⟩

abbrev nBuf : Space → Nat
  | .hbm => 212
  | .vmem => 48
  | .smem => 0
  | _ => 0

abbrev hbmTy0_0 (i : Nat) : BufTy := match i % 128 with
  | 0 => ⟨S10000x768, .f32⟩
  | 1 => ⟨S50000x768, .f32⟩
  | 2 => ⟨S768x256, .f32⟩
  | 3 => ⟨S256, .f32⟩
  | 4 => ⟨S768x256, .f32⟩
  | 5 => ⟨S256, .f32⟩
  | 6 => ⟨S2x3x256x256, .f32⟩
  | 7 => ⟨S2x256x256, .f32⟩
  | 8 => ⟨S2x256, .f32⟩
  | 9 => ⟨S256x8, .f32⟩
  | 10 => ⟨S8, .f32⟩
  | 11 => ⟨S500000, .i32⟩
  | 12 => ⟨S500000, .i32⟩
  | 13 => ⟨S400000, .i32⟩
  | 14 => ⟨S400000, .i32⟩
  | 15 => ⟨S400000, .i32⟩
  | 16 => ⟨S400000, .i32⟩
  | 17 => ⟨S1x256, .f32⟩
  | 18 => ⟨S10000x256, .f32⟩
  | 19 => ⟨S1x256, .f32⟩
  | 20 => ⟨S50000x256, .f32⟩
  | 21 => ⟨S60000x256, .f32⟩
  | 22 => ⟨S_, .i32⟩
  | 23 => ⟨S400000, .i32⟩
  | 24 => ⟨S400000, .i32⟩
  | 25 => ⟨S_, .i32⟩
  | 26 => ⟨S400000, .i32⟩
  | 27 => ⟨S400000, .i32⟩
  | 28 => ⟨S_, .f32⟩
  | 29 => ⟨S500000, .f32⟩
  | 30 => ⟨S_, .f32⟩
  | 31 => ⟨S60000, .f32⟩
  | 32 => ⟨S500000x1, .i32⟩
  | 33 => ⟨S60000, .f32⟩
  | 34 => ⟨S_, .f32⟩
  | 35 => ⟨S60000, .f32⟩
  | 36 => ⟨S60000, .i1⟩
  | 37 => ⟨S_, .f32⟩
  | 38 => ⟨S60000, .f32⟩
  | 39 => ⟨S60000, .f32⟩
  | 40 => ⟨S_, .f32⟩
  | 41 => ⟨S60000, .f32⟩
  | 42 => ⟨S60000, .f32⟩
  | 43 => ⟨S_, .f32⟩
  | 44 => ⟨S_, .f32⟩
  | 45 => ⟨S60000, .f32⟩
  | 46 => ⟨S60000, .f32⟩
  | 47 => ⟨S60000x1, .f32⟩
  | 48 => ⟨S_, .f32⟩
  | 49 => ⟨S400000, .f32⟩
  | 50 => ⟨S_, .f32⟩
  | 51 => ⟨S60000, .f32⟩
  | 52 => ⟨S400000x1, .i32⟩
  | 53 => ⟨S60000, .f32⟩
  | 54 => ⟨S_, .f32⟩
  | 55 => ⟨S60000, .f32⟩
  | 56 => ⟨S60000, .i1⟩
  | 57 => ⟨S_, .f32⟩
  | 58 => ⟨S60000, .f32⟩
  | 59 => ⟨S60000, .f32⟩
  | 60 => ⟨S_, .f32⟩
  | 61 => ⟨S60000, .f32⟩
  | 62 => ⟨S60000, .f32⟩
  | 63 => ⟨S_, .f32⟩
  | 64 => ⟨S_, .f32⟩
  | 65 => ⟨S60000, .f32⟩
  | 66 => ⟨S60000, .f32⟩
  | 67 => ⟨S60000x1, .f32⟩
  | 68 => ⟨S_, .f32⟩
  | 69 => ⟨S400000, .f32⟩
  | 70 => ⟨S_, .f32⟩
  | 71 => ⟨S60000, .f32⟩
  | 72 => ⟨S400000x1, .i32⟩
  | 73 => ⟨S60000, .f32⟩
  | 74 => ⟨S_, .f32⟩
  | 75 => ⟨S60000, .f32⟩
  | 76 => ⟨S60000, .i1⟩
  | 77 => ⟨S_, .f32⟩
  | 78 => ⟨S60000, .f32⟩
  | 79 => ⟨S60000, .f32⟩
  | 80 => ⟨S_, .f32⟩
  | 81 => ⟨S60000, .f32⟩
  | 82 => ⟨S60000, .f32⟩
  | 83 => ⟨S_, .f32⟩
  | 84 => ⟨S_, .f32⟩
  | 85 => ⟨S60000, .f32⟩
  | 86 => ⟨S60000, .f32⟩
  | 87 => ⟨S60000x1, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x256, .f32⟩
  | 97 => ⟨S_, .f32⟩
  | 98 => ⟨S60000x256, .f32⟩
  | 99 => ⟨S500000x1, .i32⟩
  | 100 => ⟨S60000x256, .f32⟩
  | 101 => ⟨S60000x256, .f32⟩
  | 102 => ⟨S60000x256, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x256, .f32⟩
  | 112 => ⟨S_, .f32⟩
  | 113 => ⟨S60000x256, .f32⟩
  | 114 => ⟨S400000x1, .i32⟩
  | 115 => ⟨S60000x256, .f32⟩
  | 116 => ⟨S60000x256, .f32⟩
  | 117 => ⟨S60000x256, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x256, .f32⟩
  | 127 => ⟨S_, .f32⟩
  | _ => ⟨S10000x768, .f32⟩

abbrev hbmTy0_1 (i : Nat) : BufTy := match i % 128 with
  | 0 => ⟨S60000x256, .f32⟩
  | 1 => ⟨S400000x1, .i32⟩
  | 2 => ⟨S60000x256, .f32⟩
  | 3 => ⟨S60000x256, .f32⟩
  | 4 => ⟨S60000x256, .f32⟩
  | 5 => ⟨S1x256x256, .f32⟩
  | 6 => ⟨S256x256, .f32⟩
  | 7 => ⟨S1x1x256x256, .f32⟩
  | 8 => ⟨S256x256, .f32⟩
  | 9 => ⟨S1x1x256x256, .f32⟩
  | 10 => ⟨S256x256, .f32⟩
  | 11 => ⟨S1x1x256x256, .f32⟩
  | 12 => ⟨S256x256, .f32⟩
  | 13 => ⟨S1x256, .f32⟩
  | 14 => ⟨S256, .f32⟩
  | 15 => ⟨S1x256, .f32⟩
  | 16 => ⟨S60000x256, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x256, .f32⟩
  | 26 => ⟨S_, .f32⟩
  | 27 => ⟨S60000x256, .f32⟩
  | 28 => ⟨S500000x1, .i32⟩
  | 29 => ⟨S60000x256, .f32⟩
  | 30 => ⟨S60000x256, .f32⟩
  | 31 => ⟨S60000x256, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x256, .f32⟩
  | 41 => ⟨S_, .f32⟩
  | 42 => ⟨S60000x256, .f32⟩
  | 43 => ⟨S400000x1, .i32⟩
  | 44 => ⟨S60000x256, .f32⟩
  | 45 => ⟨S60000x256, .f32⟩
  | 46 => ⟨S60000x256, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x256, .f32⟩
  | 56 => ⟨S_, .f32⟩
  | 57 => ⟨S60000x256, .f32⟩
  | 58 => ⟨S400000x1, .i32⟩
  | 59 => ⟨S60000x256, .f32⟩
  | 60 => ⟨S60000x256, .f32⟩
  | 61 => ⟨S60000x256, .f32⟩
  | 62 => ⟨S1x256x256, .f32⟩
  | 63 => ⟨S256x256, .f32⟩
  | 64 => ⟨S1x1x256x256, .f32⟩
  | 65 => ⟨S256x256, .f32⟩
  | 66 => ⟨S1x1x256x256, .f32⟩
  | 67 => ⟨S256x256, .f32⟩
  | 68 => ⟨S1x1x256x256, .f32⟩
  | 69 => ⟨S256x256, .f32⟩
  | 70 => ⟨S1x256, .f32⟩
  | 71 => ⟨S256, .f32⟩
  | 72 => ⟨S1x256, .f32⟩
  | 73 => ⟨S60000x256, .f32⟩
  | 74 => ⟨S_, .i32⟩
  | 75 => ⟨S_, .f32⟩
  | 76 => ⟨S256x128, .f32⟩
  | 77 => ⟨S_, .i32⟩
  | 78 => ⟨S_, .f32⟩
  | 79 => ⟨S128, .f32⟩
  | 80 => ⟨S10000x256, .f32⟩
  | 81 => ⟨S1x128, .f32⟩
  | 82 => ⟨S10000x128, .f32⟩
  | 83 => ⟨S10000x8, .f32⟩
  | _ => ⟨S10000x768, .f32⟩

abbrev hbmTy (i : Nat) : BufTy := match i / 128 with
  | 0 => hbmTy0_0 i
  | 1 => hbmTy0_1 i
  | _ => ⟨S10000x768, .f32⟩

abbrev bufTy : (tb : Table) → Fin (tcTables nBuf tb) → BufTy
  | .hbm, ⟨i, _⟩ => hbmTy i
  | .local _ .vmem, ⟨0, _⟩ => ⟨S1000x768, .f32⟩
  | .local _ .vmem, ⟨1, _⟩ => ⟨S1000x768, .f32⟩
  | .local _ .vmem, ⟨2, _⟩ => ⟨S768x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x768, .f32⟩
  | .local _ .vmem, ⟨7, _⟩ => ⟨S1000x768, .f32⟩
  | .local _ .vmem, ⟨8, _⟩ => ⟨S768x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S1000x256, .f32⟩
  | .local _ .vmem, ⟨43, _⟩ => ⟨S1000x256, .f32⟩
  | .local _ .vmem, ⟨44, _⟩ => ⟨S256x128, .f32⟩
  | .local _ .vmem, ⟨45, _⟩ => ⟨S1x128, .f32⟩
  | .local _ .vmem, ⟨46, _⟩ => ⟨S1000x128, .f32⟩
  | .local _ .vmem, ⟨47, _⟩ => ⟨S1000x128, .f32⟩
  | _, _ => ⟨S10000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_v19 : Ref sig .tc := ⟨.hbm, 46, rfl⟩
abbrev main_v20 : Ref sig .tc := ⟨.hbm, 47, rfl⟩
abbrev main_cst_6 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_8 : Ref sig .tc := ⟨.hbm, 54, rfl⟩
abbrev main_v25 : Ref sig .tc := ⟨.hbm, 55, rfl⟩
abbrev main_v26 : Ref sig .tc := ⟨.hbm, 56, rfl⟩
abbrev main_cst_9 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_cst_11 : Ref sig .tc := ⟨.hbm, 63, rfl⟩
abbrev main_call1_v0 : Ref sig .tc := ⟨.hbm, 64, rfl⟩
abbrev main_call1_v1 : Ref sig .tc := ⟨.hbm, 65, rfl⟩
abbrev main_v31 : Ref sig .tc := ⟨.hbm, 66, rfl⟩
abbrev main_v32 : Ref sig .tc := ⟨.hbm, 67, rfl⟩
abbrev main_cst_12 : Ref sig .tc := ⟨.hbm, 68, rfl⟩
abbrev main_v33 : Ref sig .tc := ⟨.hbm, 69, rfl⟩
abbrev main_cst_13 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_14 : Ref sig .tc := ⟨.hbm, 74, rfl⟩
abbrev main_v37 : Ref sig .tc := ⟨.hbm, 75, rfl⟩
abbrev main_v38 : Ref sig .tc := ⟨.hbm, 76, rfl⟩
abbrev main_cst_15 : Ref sig .tc := ⟨.hbm, 77, rfl⟩
abbrev main_v39 : Ref sig .tc := ⟨.hbm, 78, rfl⟩
abbrev main_v40 : Ref sig .tc := ⟨.hbm, 79, rfl⟩
abbrev main_cst_16 : Ref sig .tc := ⟨.hbm, 80, rfl⟩
abbrev main_v41 : Ref sig .tc := ⟨.hbm, 81, rfl⟩
abbrev main_v42 : Ref sig .tc := ⟨.hbm, 82, rfl⟩
abbrev main_cst_17 : Ref sig .tc := ⟨.hbm, 83, rfl⟩
abbrev main_call2_v0 : Ref sig .tc := ⟨.hbm, 84, rfl⟩
abbrev main_call2_v1 : Ref sig .tc := ⟨.hbm, 85, rfl⟩
abbrev main_v43 : Ref sig .tc := ⟨.hbm, 86, rfl⟩
abbrev main_v44 : Ref sig .tc := ⟨.hbm, 87, rfl⟩
abbrev main_c_18 : Ref sig .tc := ⟨.hbm, 88, rfl⟩
abbrev main_v45 : Ref sig .tc := ⟨.hbm, 89, rfl⟩
abbrev main_v46 : Ref sig .tc := ⟨.hbm, 90, rfl⟩
abbrev main_c_19 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_20 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_21 : Ref sig .tc := ⟨.hbm, 103, rfl⟩
abbrev main_v57 : Ref sig .tc := ⟨.hbm, 104, rfl⟩
abbrev main_v58 : Ref sig .tc := ⟨.hbm, 105, rfl⟩
abbrev main_c_22 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_24 : Ref sig .tc := ⟨.hbm, 118, rfl⟩
abbrev main_v69 : Ref sig .tc := ⟨.hbm, 119, rfl⟩
abbrev main_v70 : Ref sig .tc := ⟨.hbm, 120, rfl⟩
abbrev main_c_25 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_26 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_27 : Ref sig .tc := ⟨.hbm, 145, rfl⟩
abbrev main_v93 : Ref sig .tc := ⟨.hbm, 146, rfl⟩
abbrev main_v94 : Ref sig .tc := ⟨.hbm, 147, rfl⟩
abbrev main_c_28 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_29 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_c_30 : Ref sig .tc := ⟨.hbm, 160, rfl⟩
abbrev main_v105 : Ref sig .tc := ⟨.hbm, 161, rfl⟩
abbrev main_v106 : Ref sig .tc := ⟨.hbm, 162, rfl⟩
abbrev main_c_31 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_32 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_c_33 : Ref sig .tc := ⟨.hbm, 175, rfl⟩
abbrev main_v117 : Ref sig .tc := ⟨.hbm, 176, rfl⟩
abbrev main_v118 : Ref sig .tc := ⟨.hbm, 177, rfl⟩
abbrev main_c_34 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_cst_35 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_c_36 : Ref sig .tc := ⟨.hbm, 202, rfl⟩
abbrev main_call3_v0 : Ref sig .tc := ⟨.hbm, 203, rfl⟩
abbrev main_v141 : Ref sig .tc := ⟨.hbm, 204, rfl⟩
abbrev main_c_37 : Ref sig .tc := ⟨.hbm, 205, rfl⟩
abbrev main_call4_v0 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S256_S1x256 : S256.ShapeCasts S1x256
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  concatenates_S10000x256_S50000x256_S60000x256_d0 : Shape.Concatenates [S10000x256, S50000x256] S60000x256 0
  bcast_S_S400000 : S_.BroadcastsInDim S400000 (![] : Fin 0 → Fin S400000.rank)
  bcast_S_S500000 : S_.BroadcastsInDim S500000 (![] : Fin 0 → Fin S500000.rank)
  bcast_S_S60000 : S_.BroadcastsInDim S60000 (![] : Fin 0 → Fin S60000.rank)
  bcast_S500000_S500000x1_0 : S500000.BroadcastsInDim S500000x1 (![0] : Fin 1 → Fin S500000x1.rank)
  bcast_S60000_S60000x1_0 : S60000.BroadcastsInDim S60000x1 (![0] : Fin 1 → Fin S60000x1.rank)
  bcast_S400000_S400000x1_0 : S400000.BroadcastsInDim S400000x1 (![0] : Fin 1 → Fin S400000x1.rank)
  bcast_S_S60000x256 : S_.BroadcastsInDim S60000x256 (![] : Fin 0 → Fin S60000x256.rank)
  bcast_S60000x1_S60000x256_0_1 : S60000x1.BroadcastsInDim S60000x256 (![0, 1] : Fin 2 → Fin S60000x256.rank)
  slices_S2x256x256_S1x256x256_0_0_0 : S2x256x256.Slices ![0, 0, 0] S1x256x256
  shapeCasts_S1x256x256_S256x256 : S1x256x256.ShapeCasts S256x256
  slices_S2x3x256x256_S1x1x256x256_0_0_0_0 : S2x3x256x256.Slices ![0, 0, 0, 0] S1x1x256x256
  shapeCasts_S1x1x256x256_S256x256 : S1x1x256x256.ShapeCasts S256x256
  slices_S2x3x256x256_S1x1x256x256_0_1_0_0 : S2x3x256x256.Slices ![0, 1, 0, 0] S1x1x256x256
  slices_S2x3x256x256_S1x1x256x256_0_2_0_0 : S2x3x256x256.Slices ![0, 2, 0, 0] S1x1x256x256
  slices_S2x256_S1x256_0_0 : S2x256.Slices ![0, 0] S1x256
  shapeCasts_S1x256_S256 : S1x256.ShapeCasts S256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2000x256 : S1x256.Broadcasts S2000x256
  slices_S2x256x256_S1x256x256_1_0_0 : S2x256x256.Slices ![1, 0, 0] S1x256x256
  slices_S2x3x256x256_S1x1x256x256_1_0_0_0 : S2x3x256x256.Slices ![1, 0, 0, 0] S1x1x256x256
  slices_S2x3x256x256_S1x1x256x256_1_1_0_0 : S2x3x256x256.Slices ![1, 1, 0, 0] S1x1x256x256
  slices_S2x3x256x256_S1x1x256x256_1_2_0_0 : S2x3x256x256.Slices ![1, 2, 0, 0] S1x1x256x256
  slices_S2x256_S1x256_1_0 : S2x256.Slices ![1, 0] S1x256
  pads_S256x8_S256x128_000_01200 : S256x8.Pads (![0, 0] : Fin 2 → Nat) ![0, 120] ![0, 0] S256x128
  h_S_ : 0 < S_.numel
  pads_S8_S128_01200 : S8.Pads (![0] : Fin 1 → Nat) ![120] ![0] S128
  slices_S60000x256_S10000x256_0_0 : S60000x256.Slices ![0, 0] S10000x256
  shapeCasts_S128_S1x128 : S128.ShapeCasts S1x128
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  slices_S10000x128_S10000x8_0_0 : S10000x128.Slices ![0, 0] S10000x8
  dot_S1000x768_S768x256_S1000x256_1_0_0_1_n_n_wf : DotDims.WF S1000x768 S768x256 S1000x256 [1] [0] [0] [1] [] []
  scatter_S60000_S500000x1_S500000_n_0_0_1_wf : ScatterDims.WF S60000 S500000x1 S500000 [] [0] [0] 1
  scatter_S60000_S400000x1_S400000_n_0_0_1_wf : ScatterDims.WF S60000 S400000x1 S400000 [] [0] [0] 1
  gather_S60000x256_S500000x1_S500000x256_1_0_n_n_0_1_1256_wf : GatherDims.WF S60000x256 S500000x1 S500000x256 [1] [0] [] [0] [] 1 ![1, 256]
  scatter_S60000x256_S500000x1_S500000x256_1_0_0_1_wf : ScatterDims.WF S60000x256 S500000x1 S500000x256 [1] [0] [0] 1
  gather_S60000x256_S400000x1_S400000x256_1_0_n_n_0_1_1256_wf : GatherDims.WF S60000x256 S400000x1 S400000x256 [1] [0] [] [0] [] 1 ![1, 256]
  scatter_S60000x256_S400000x1_S400000x256_1_0_0_1_wf : ScatterDims.WF S60000x256 S400000x1 S400000x256 [1] [0] [0] 1
  dot_S2000x256_S256x256_S2000x256_1_0_0_1_n_n_wf : DotDims.WF S2000x256 S256x256 S2000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S10000x768.size a
  hwx0_0 : ∀ i : grid0.Coords, EltTy.bits .f32 = 32 ∨ (Rect.block (s := S10000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S50000x768.size a
  hwx1_0 : ∀ i : grid1.Coords, EltTy.bits .f32 = 32 ∨ (Rect.block (s := S50000x768) S1000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x256.size a ≤ S768x256.size a
  hwx1_1 : ∀ i : grid1.Coords, EltTy.bits .f32 = 32 ∨ (Rect.block (s := S768x256) S768x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S60000x256.size a
  hwx2_0 : ∀ i : grid2.Coords, EltTy.bits .f32 = 32 ∨ (Rect.block (s := S60000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S60000x256.size a
  hwx2_1 : ∀ i : grid2.Coords, EltTy.bits .f32 = 32 ∨ (Rect.block (s := S60000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S60000x256.size a
  hwx2_2 : ∀ i : grid2.Coords, EltTy.bits .f32 = 32 ∨ (Rect.block (s := S60000x256) S2000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S60000x256.size a
  hwx2_3 : ∀ i : grid2.Coords, EltTy.bits .f32 = 32 ∨ (Rect.block (s := S60000x256) S2000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x256.size a ≤ S60000x256.size a
  hwx2_9 : ∀ i : grid2.Coords, EltTy.bits .f32 = 32 ∨ (Rect.block (s := S60000x256) S2000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S60000x256.size a
  hwx3_0 : ∀ i : grid3.Coords, EltTy.bits .f32 = 32 ∨ (Rect.block (s := S60000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S60000x256.size a
  hwx3_1 : ∀ i : grid3.Coords, EltTy.bits .f32 = 32 ∨ (Rect.block (s := S60000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S60000x256.size a
  hwx3_2 : ∀ i : grid3.Coords, EltTy.bits .f32 = 32 ∨ (Rect.block (s := S60000x256) S2000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S60000x256.size a
  hwx3_3 : ∀ i : grid3.Coords, EltTy.bits .f32 = 32 ∨ (Rect.block (s := S60000x256) S2000x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x256.size a ≤ S60000x256.size a
  hwx3_9 : ∀ i : grid3.Coords, EltTy.bits .f32 = 32 ∨ (Rect.block (s := S60000x256) S2000x256.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S10000x256.size a
  hwx4_0 : ∀ i : grid4.Coords, EltTy.bits .f32 = 32 ∨ (Rect.block (s := S10000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S10000x128.size a
  hwx4_3 : ∀ i : grid4.Coords, EltTy.bits .f32 = 32 ∨ (Rect.block (s := S10000x128) S1000x128.size (cc4_transform_3 i) (hinb4_3 i)).WholeWords (EltTy.packing .f32)

variable [Facts₀]

def dot_S1000x768_S768x256_S1000x256_1_0_0_1_n_n : DotDims S1000x768 S768x256 S1000x256 where
  lhsContracting := [1]
  rhsContracting := [0]
  lhsNonContracting := [0]
  rhsNonContracting := [1]
  lhsBatch := []
  rhsBatch := []
  wf := dot_S1000x768_S768x256_S1000x256_1_0_0_1_n_n_wf
def scatter_S60000_S500000x1_S500000_n_0_0_1 : ScatterDims S60000 S500000x1 S500000 where
  updateWindowDims := []
  insertedWindowDims := [0]
  scatterDimsToOperandDims := [0]
  indexVectorDim := 1
  wf := scatter_S60000_S500000x1_S500000_n_0_0_1_wf
def scatter_S60000_S400000x1_S400000_n_0_0_1 : ScatterDims S60000 S400000x1 S400000 where
  updateWindowDims := []
  insertedWindowDims := [0]
  scatterDimsToOperandDims := [0]
  indexVectorDim := 1
  wf := scatter_S60000_S400000x1_S400000_n_0_0_1_wf
def gather_S60000x256_S500000x1_S500000x256_1_0_n_n_0_1_1256 : GatherDims S60000x256 S500000x1 S500000x256 where
  offsetDims := [1]
  collapsedSliceDims := [0]
  operandBatchingDims := []
  startIndicesBatchingDims := []
  startIndexMap := [0]
  indexVectorDim := 1
  sliceSizes := ![1, 256]
  wf := gather_S60000x256_S500000x1_S500000x256_1_0_n_n_0_1_1256_wf
def scatter_S60000x256_S500000x1_S500000x256_1_0_0_1 : ScatterDims S60000x256 S500000x1 S500000x256 where
  updateWindowDims := [1]
  insertedWindowDims := [0]
  scatterDimsToOperandDims := [0]
  indexVectorDim := 1
  wf := scatter_S60000x256_S500000x1_S500000x256_1_0_0_1_wf
def gather_S60000x256_S400000x1_S400000x256_1_0_n_n_0_1_1256 : GatherDims S60000x256 S400000x1 S400000x256 where
  offsetDims := [1]
  collapsedSliceDims := [0]
  operandBatchingDims := []
  startIndicesBatchingDims := []
  startIndexMap := [0]
  indexVectorDim := 1
  sliceSizes := ![1, 256]
  wf := gather_S60000x256_S400000x1_S400000x256_1_0_n_n_0_1_1256_wf
def scatter_S60000x256_S400000x1_S400000x256_1_0_0_1 : ScatterDims S60000x256 S400000x1 S400000x256 where
  updateWindowDims := [1]
  insertedWindowDims := [0]
  scatterDimsToOperandDims := [0]
  indexVectorDim := 1
  wf := scatter_S60000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S768x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v80) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v82) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v88) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v91) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v92) S2000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v92) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v104) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v116) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v128) S2000x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v130) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v132) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v134) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v136) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v139) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v140) S2000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v143) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v141) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v144) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v145) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x768 : Shape := ⟨2, ![10000, 768]⟩
abbrev S50000x768 : Shape := ⟨2, ![50000, 768]⟩
abbrev S768x256 : Shape := ⟨2, ![768, 256]⟩
abbrev S256 : Shape := ⟨1, ![256]⟩
abbrev S2x3x256x256 : Shape := ⟨4, ![2, 3, 256, 256]⟩
abbrev S2x256x256 : Shape := ⟨3, ![2, 256, 256]⟩
abbrev S2x256 : Shape := ⟨2, ![2, 256]⟩
abbrev S256x8 : Shape := ⟨2, ![256, 8]⟩
abbrev S8 : Shape := ⟨1, ![8]⟩
abbrev S500000 : Shape := ⟨1, ![500000]⟩
abbrev S400000 : Shape := ⟨1, ![400000]⟩
abbrev S10000x256 : Shape := ⟨2, ![10000, 256]⟩
abbrev S1x256 : Shape := ⟨2, ![1, 256]⟩
abbrev S50000x256 : Shape := ⟨2, ![50000, 256]⟩
abbrev S60000x256 : Shape := ⟨2, ![60000, 256]⟩
abbrev S_ : Shape := ⟨0, ![]⟩
abbrev S60000 : Shape := ⟨1, ![60000]⟩
abbrev S500000x1 : Shape := ⟨2, ![500000, 1]⟩
abbrev S60000x1 : Shape := ⟨2, ![60000, 1]⟩
abbrev S400000x1 : Shape := ⟨2, ![400000, 1]⟩
abbrev S1x256x256 : Shape := ⟨3, ![1, 256, 256]⟩
abbrev S256x256 : Shape := ⟨2, ![256, 256]⟩
abbrev S500000x256 : Shape := ⟨2, ![500000, 256]⟩
abbrev S1x1x256x256 : Shape := ⟨4, ![1, 1, 256, 256]⟩
abbrev S400000x256 : Shape := ⟨2, ![400000, 256]⟩
abbrev S10000x8 : Shape := ⟨2, ![10000, 8]⟩
abbrev S1x8 : Shape := ⟨2, ![1, 8]⟩

abbrev nBuf : Space → Nat
  | .hbm => 233
  | .vmem => 0
  | .smem => 0
  | _ => 0

abbrev hbmTy0_0 (i : Nat) : BufTy := match i % 128 with
  | 0 => ⟨S10000x768, .f32⟩
  | 1 => ⟨S50000x768, .f32⟩
  | 2 => ⟨S768x256, .f32⟩
  | 3 => ⟨S256, .f32⟩
  | 4 => ⟨S768x256, .f32⟩
  | 5 => ⟨S256, .f32⟩
  | 6 => ⟨S2x3x256x256, .f32⟩
  | 7 => ⟨S2x256x256, .f32⟩
  | 8 => ⟨S2x256, .f32⟩
  | 9 => ⟨S256x8, .f32⟩
  | 10 => ⟨S8, .f32⟩
  | 11 => ⟨S500000, .i32⟩
  | 12 => ⟨S500000, .i32⟩
  | 13 => ⟨S400000, .i32⟩
  | 14 => ⟨S400000, .i32⟩
  | 15 => ⟨S400000, .i32⟩
  | 16 => ⟨S400000, .i32⟩
  | 17 => ⟨S10000x256, .f32⟩
  | 18 => ⟨S1x256, .f32⟩
  | 19 => ⟨S10000x256, .f32⟩
  | 20 => ⟨S10000x256, .f32⟩
  | 21 => ⟨S50000x256, .f32⟩
  | 22 => ⟨S1x256, .f32⟩
  | 23 => ⟨S50000x256, .f32⟩
  | 24 => ⟨S50000x256, .f32⟩
  | 25 => ⟨S60000x256, .f32⟩
  | 26 => ⟨S_, .i32⟩
  | 27 => ⟨S400000, .i32⟩
  | 28 => ⟨S400000, .i32⟩
  | 29 => ⟨S_, .i32⟩
  | 30 => ⟨S400000, .i32⟩
  | 31 => ⟨S400000, .i32⟩
  | 32 => ⟨S_, .f32⟩
  | 33 => ⟨S500000, .f32⟩
  | 34 => ⟨S_, .f32⟩
  | 35 => ⟨S60000, .f32⟩
  | 36 => ⟨S500000x1, .i32⟩
  | 37 => ⟨S60000, .f32⟩
  | 38 => ⟨S_, .f32⟩
  | 39 => ⟨S60000, .f32⟩
  | 40 => ⟨S60000, .i1⟩
  | 41 => ⟨S_, .f32⟩
  | 42 => ⟨S60000, .f32⟩
  | 43 => ⟨S60000, .f32⟩
  | 44 => ⟨S_, .f32⟩
  | 45 => ⟨S60000, .f32⟩
  | 46 => ⟨S60000, .f32⟩
  | 47 => ⟨S_, .f32⟩
  | 48 => ⟨S_, .f32⟩
  | 49 => ⟨S60000, .f32⟩
  | 50 => ⟨S60000, .f32⟩
  | 51 => ⟨S60000x1, .f32⟩
  | 52 => ⟨S_, .f32⟩
  | 53 => ⟨S400000, .f32⟩
  | 54 => ⟨S_, .f32⟩
  | 55 => ⟨S60000, .f32⟩
  | 56 => ⟨S400000x1, .i32⟩
  | 57 => ⟨S60000, .f32⟩
  | 58 => ⟨S_, .f32⟩
  | 59 => ⟨S60000, .f32⟩
  | 60 => ⟨S60000, .i1⟩
  | 61 => ⟨S_, .f32⟩
  | 62 => ⟨S60000, .f32⟩
  | 63 => ⟨S60000, .f32⟩
  | 64 => ⟨S_, .f32⟩
  | 65 => ⟨S60000, .f32⟩
  | 66 => ⟨S60000, .f32⟩
  | 67 => ⟨S_, .f32⟩
  | 68 => ⟨S_, .f32⟩
  | 69 => ⟨S60000, .f32⟩
  | 70 => ⟨S60000, .f32⟩
  | 71 => ⟨S60000x1, .f32⟩
  | 72 => ⟨S_, .f32⟩
  | 73 => ⟨S400000, .f32⟩
  | 74 => ⟨S_, .f32⟩
  | 75 => ⟨S60000, .f32⟩
  | 76 => ⟨S400000x1, .i32⟩
  | 77 => ⟨S60000, .f32⟩
  | 78 => ⟨S_, .f32⟩
  | 79 => ⟨S60000, .f32⟩
  | 80 => ⟨S60000, .i1⟩
  | 81 => ⟨S_, .f32⟩
  | 82 => ⟨S60000, .f32⟩
  | 83 => ⟨S60000, .f32⟩
  | 84 => ⟨S_, .f32⟩
  | 85 => ⟨S60000, .f32⟩
  | 86 => ⟨S60000, .f32⟩
  | 87 => ⟨S_, .f32⟩
  | 88 => ⟨S_, .f32⟩
  | 89 => ⟨S60000, .f32⟩
  | 90 => ⟨S60000, .f32⟩
  | 91 => ⟨S60000x1, .f32⟩
  | 92 => ⟨S1x256x256, .f32⟩
  | 93 => ⟨S256x256, .f32⟩
  | 94 => ⟨S60000x256, .f32⟩
  | 95 => ⟨S1x256, .f32⟩
  | 96 => ⟨S256, .f32⟩
  | 97 => ⟨S1x256, .f32⟩
  | 98 => ⟨S60000x256, .f32⟩
  | 99 => ⟨S60000x256, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x256, .f32⟩
  | 109 => ⟨S_, .f32⟩
  | 110 => ⟨S60000x256, .f32⟩
  | 111 => ⟨S500000x1, .i32⟩
  | 112 => ⟨S60000x256, .f32⟩
  | 113 => ⟨S60000x256, .f32⟩
  | 114 => ⟨S60000x256, .f32⟩
  | 115 => ⟨S1x1x256x256, .f32⟩
  | 116 => ⟨S256x256, .f32⟩
  | 117 => ⟨S60000x256, .f32⟩
  | 118 => ⟨S60000x256, .f32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S400000x256, .f32⟩
  | _ => ⟨S10000x768, .f32⟩

abbrev hbmTy0_1 (i : Nat) : BufTy := match i % 128 with
  | 0 => ⟨S_, .f32⟩
  | 1 => ⟨S60000x256, .f32⟩
  | 2 => ⟨S400000x1, .i32⟩
  | 3 => ⟨S60000x256, .f32⟩
  | 4 => ⟨S60000x256, .f32⟩
  | 5 => ⟨S60000x256, .f32⟩
  | 6 => ⟨S1x1x256x256, .f32⟩
  | 7 => ⟨S256x256, .f32⟩
  | 8 => ⟨S60000x256, .f32⟩
  | 9 => ⟨S60000x256, .f32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x256, .f32⟩
  | 19 => ⟨S_, .f32⟩
  | 20 => ⟨S60000x256, .f32⟩
  | 21 => ⟨S400000x1, .i32⟩
  | 22 => ⟨S60000x256, .f32⟩
  | 23 => ⟨S60000x256, .f32⟩
  | 24 => ⟨S60000x256, .f32⟩
  | 25 => ⟨S1x1x256x256, .f32⟩
  | 26 => ⟨S256x256, .f32⟩
  | 27 => ⟨S60000x256, .f32⟩
  | 28 => ⟨S60000x256, .f32⟩
  | 29 => ⟨S_, .f32⟩
  | 30 => ⟨S60000x256, .f32⟩
  | 31 => ⟨S60000x256, .f32⟩
  | 32 => ⟨S1x256x256, .f32⟩
  | 33 => ⟨S256x256, .f32⟩
  | 34 => ⟨S60000x256, .f32⟩
  | 35 => ⟨S1x256, .f32⟩
  | 36 => ⟨S256, .f32⟩
  | 37 => ⟨S1x256, .f32⟩
  | 38 => ⟨S60000x256, .f32⟩
  | 39 => ⟨S60000x256, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x256, .f32⟩
  | 49 => ⟨S_, .f32⟩
  | 50 => ⟨S60000x256, .f32⟩
  | 51 => ⟨S500000x1, .i32⟩
  | 52 => ⟨S60000x256, .f32⟩
  | 53 => ⟨S60000x256, .f32⟩
  | 54 => ⟨S60000x256, .f32⟩
  | 55 => ⟨S1x1x256x256, .f32⟩
  | 56 => ⟨S256x256, .f32⟩
  | 57 => ⟨S60000x256, .f32⟩
  | 58 => ⟨S60000x256, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x256, .f32⟩
  | 68 => ⟨S_, .f32⟩
  | 69 => ⟨S60000x256, .f32⟩
  | 70 => ⟨S400000x1, .i32⟩
  | 71 => ⟨S60000x256, .f32⟩
  | 72 => ⟨S60000x256, .f32⟩
  | 73 => ⟨S60000x256, .f32⟩
  | 74 => ⟨S1x1x256x256, .f32⟩
  | 75 => ⟨S256x256, .f32⟩
  | 76 => ⟨S60000x256, .f32⟩
  | 77 => ⟨S60000x256, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x256, .f32⟩
  | 87 => ⟨S_, .f32⟩
  | 88 => ⟨S60000x256, .f32⟩
  | 89 => ⟨S400000x1, .i32⟩
  | 90 => ⟨S60000x256, .f32⟩
  | 91 => ⟨S60000x256, .f32⟩
  | 92 => ⟨S60000x256, .f32⟩
  | 93 => ⟨S1x1x256x256, .f32⟩
  | 94 => ⟨S256x256, .f32⟩
  | 95 => ⟨S60000x256, .f32⟩
  | 96 => ⟨S60000x256, .f32⟩
  | 97 => ⟨S_, .f32⟩
  | 98 => ⟨S60000x256, .f32⟩
  | 99 => ⟨S60000x256, .f32⟩
  | 100 => ⟨S10000x256, .f32⟩
  | 101 => ⟨S10000x8, .f32⟩
  | 102 => ⟨S1x8, .f32⟩
  | 103 => ⟨S10000x8, .f32⟩
  | 104 => ⟨S10000x8, .f32⟩
  | _ => ⟨S10000x768, .f32⟩

abbrev hbmTy (i : Nat) : BufTy := match i / 128 with
  | 0 => hbmTy0_0 i
  | 1 => hbmTy0_1 i
  | _ => ⟨S10000x768, .f32⟩

abbrev bufTy : (tb : Table) → Fin (tcTables nBuf tb) → BufTy
  | .hbm, ⟨i, _⟩ => hbmTy i
  | _, _ => ⟨S10000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v23 : Ref sig .tc := ⟨.hbm, 50, rfl⟩
abbrev main_v24 : Ref sig .tc := ⟨.hbm, 51, rfl⟩
abbrev main_cst_6 : Ref sig .tc := ⟨.hbm, 52, rfl⟩
abbrev main_v25 : Ref sig .tc := ⟨.hbm, 53, rfl⟩
abbrev main_cst_7 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_8 : Ref sig .tc := ⟨.hbm, 58, rfl⟩
abbrev main_v29 : Ref sig .tc := ⟨.hbm, 59, rfl⟩
abbrev main_v30 : Ref sig .tc := ⟨.hbm, 60, rfl⟩
abbrev main_cst_9 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_v33 : Ref sig .tc := ⟨.hbm, 65, rfl⟩
abbrev main_v34 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_v35 : Ref sig .tc := ⟨.hbm, 70, rfl⟩
abbrev main_v36 : Ref sig .tc := ⟨.hbm, 71, rfl⟩
abbrev main_cst_12 : Ref sig .tc := ⟨.hbm, 72, rfl⟩
abbrev main_v37 : Ref sig .tc := ⟨.hbm, 73, rfl⟩
abbrev main_cst_13 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_14 : Ref sig .tc := ⟨.hbm, 78, rfl⟩
abbrev main_v41 : Ref sig .tc := ⟨.hbm, 79, rfl⟩
abbrev main_v42 : Ref sig .tc := ⟨.hbm, 80, rfl⟩
abbrev main_cst_15 : Ref sig .tc := ⟨.hbm, 81, rfl⟩
abbrev main_v43 : Ref sig .tc := ⟨.hbm, 82, rfl⟩
abbrev main_v44 : Ref sig .tc := ⟨.hbm, 83, rfl⟩
abbrev main_cst_16 : Ref sig .tc := ⟨.hbm, 84, rfl⟩
abbrev main_v45 : Ref sig .tc := ⟨.hbm, 85, rfl⟩
abbrev main_v46 : Ref sig .tc := ⟨.hbm, 86, rfl⟩
abbrev main_cst_17 : Ref sig .tc := ⟨.hbm, 87, rfl⟩
abbrev main_call2_v0 : Ref sig .tc := ⟨.hbm, 88, rfl⟩
abbrev main_call2_v1 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_18 : Ref sig .tc := ⟨.hbm, 100, rfl⟩
abbrev main_v57 : Ref sig .tc := ⟨.hbm, 101, rfl⟩
abbrev main_v58 : Ref sig .tc := ⟨.hbm, 102, rfl⟩
abbrev main_c_19 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_20 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_21 : Ref sig .tc := ⟨.hbm, 119, rfl⟩
abbrev main_v73 : Ref sig .tc := ⟨.hbm, 120, rfl⟩
abbrev main_v74 : Ref sig .tc := ⟨.hbm, 121, rfl⟩
abbrev main_c_22 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_23 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_c_24 : Ref sig .tc := ⟨.hbm, 138, rfl⟩
abbrev main_v89 : Ref sig .tc := ⟨.hbm, 139, rfl⟩
abbrev main_v90 : Ref sig .tc := ⟨.hbm, 140, rfl⟩
abbrev main_c_25 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_26 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_call3_cst : Ref sig .tc := ⟨.hbm, 157, rfl⟩
abbrev main_call3_v0 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_27 : Ref sig .tc := ⟨.hbm, 168, rfl⟩
abbrev main_v114 : Ref sig .tc := ⟨.hbm, 169, rfl⟩
abbrev main_v115 : Ref sig .tc := ⟨.hbm, 170, rfl⟩
abbrev main_c_28 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_29 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_c_30 : Ref sig .tc := ⟨.hbm, 187, rfl⟩
abbrev main_v130 : Ref sig .tc := ⟨.hbm, 188, rfl⟩
abbrev main_v131 : Ref sig .tc := ⟨.hbm, 189, rfl⟩
abbrev main_c_31 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_32 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_c_33 : Ref sig .tc := ⟨.hbm, 206, rfl⟩
abbrev main_v146 : Ref sig .tc := ⟨.hbm, 207, rfl⟩
abbrev main_v147 : Ref sig .tc := ⟨.hbm, 208, rfl⟩
abbrev main_c_34 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_35 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_call4_cst : Ref sig .tc := ⟨.hbm, 225, rfl⟩
abbrev main_call4_v0 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S50000x256_0_1 : S1x256.BroadcastsInDim S50000x256 (![0, 1] : Fin 2 → Fin S50000x256.rank)
  concatenates_S10000x256_S50000x256_S60000x256_d0 : Shape.Concatenates [S10000x256, S50000x256] S60000x256 0
  bcast_S_S400000 : S_.BroadcastsInDim S400000 (![] : Fin 0 → Fin S400000.rank)
  bcast_S_S500000 : S_.BroadcastsInDim S500000 (![] : Fin 0 → Fin S500000.rank)
  bcast_S_S60000 : S_.BroadcastsInDim S60000 (![] : Fin 0 → Fin S60000.rank)
  bcast_S500000_S500000x1_0 : S500000.BroadcastsInDim S500000x1 (![0] : Fin 1 → Fin S500000x1.rank)
  bcast_S60000_S60000x1_0 : S60000.BroadcastsInDim S60000x1 (![0] : Fin 1 → Fin S60000x1.rank)
  bcast_S400000_S400000x1_0 : S400000.BroadcastsInDim S400000x1 (![0] : Fin 1 → Fin S400000x1.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S1x256_S60000x256_0_1 : S1x256.BroadcastsInDim S60000x256 (![0, 1] : Fin 2 → Fin S60000x256.rank)
  bcast_S_S60000x256 : S_.BroadcastsInDim S60000x256 (![] : Fin 0 → Fin S60000x256.rank)
  bcast_S60000x1_S60000x256_0_1 : S60000x1.BroadcastsInDim S60000x256 (![0, 1] : Fin 2 → Fin S60000x256.rank)
  slices_S2x3x256x256_S1x1x256x256_0_0_0_0 : S2x3x256x256.Slices ![0, 0, 0, 0] S1x1x256x256
  shapeCasts_S1x1x256x256_S256x256 : S1x1x256x256.ShapeCasts S256x256
  slices_S2x3x256x256_S1x1x256x256_0_1_0_0 : S2x3x256x256.Slices ![0, 1, 0, 0] S1x1x256x256
  slices_S2x3x256x256_S1x1x256x256_0_2_0_0 : S2x3x256x256.Slices ![0, 2, 0, 0] S1x1x256x256
  slices_S2x256x256_S1x256x256_1_0_0 : S2x256x256.Slices ![1, 0, 0] S1x256x256
  slices_S2x256_S1x256_1_0 : S2x256.Slices ![1, 0] S1x256
  slices_S2x3x256x256_S1x1x256x256_1_0_0_0 : S2x3x256x256.Slices ![1, 0, 0, 0] S1x1x256x256
  slices_S2x3x256x256_S1x1x256x256_1_1_0_0 : S2x3x256x256.Slices ![1, 1, 0, 0] S1x1x256x256
  slices_S2x3x256x256_S1x1x256x256_1_2_0_0 : S2x3x256x256.Slices ![1, 2, 0, 0] S1x1x256x256
  slices_S60000x256_S10000x256_0_0 : S60000x256.Slices ![0, 0] S10000x256
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  dot_S10000x768_S768x256_S10000x256_1_0_0_1_n_n_wf : DotDims.WF S10000x768 S768x256 S10000x256 [1] [0] [0] [1] [] []
  dot_S50000x768_S768x256_S50000x256_1_0_0_1_n_n_wf : DotDims.WF S50000x768 S768x256 S50000x256 [1] [0] [0] [1] [] []
  scatter_S60000_S500000x1_S500000_n_0_0_1_wf : ScatterDims.WF S60000 S500000x1 S500000 [] [0] [0] 1
  scatter_S60000_S400000x1_S400000_n_0_0_1_wf : ScatterDims.WF S60000 S400000x1 S400000 [] [0] [0] 1
  dot_S60000x256_S256x256_S60000x256_1_0_0_1_n_n_wf : DotDims.WF S60000x256 S256x256 S60000x256 [1] [0] [0] [1] [] []
  gather_S60000x256_S500000x1_S500000x256_1_0_n_n_0_1_1256_wf : GatherDims.WF S60000x256 S500000x1 S500000x256 [1] [0] [] [0] [] 1 ![1, 256]
  scatter_S60000x256_S500000x1_S500000x256_1_0_0_1_wf : ScatterDims.WF S60000x256 S500000x1 S500000x256 [1] [0] [0] 1
  gather_S60000x256_S400000x1_S400000x256_1_0_n_n_0_1_1256_wf : GatherDims.WF S60000x256 S400000x1 S400000x256 [1] [0] [] [0] [] 1 ![1, 256]
  scatter_S60000x256_S400000x1_S400000x256_1_0_0_1_wf : ScatterDims.WF S60000x256 S400000x1 S400000x256 [1] [0] [0] 1
  dot_S10000x256_S256x8_S10000x8_1_0_0_1_n_n_wf : DotDims.WF S10000x256 S256x8 S10000x8 [1] [0] [0] [1] [] []

variable [Facts₀]

def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def scatter_S60000_S500000x1_S500000_n_0_0_1 : ScatterDims S60000 S500000x1 S500000 where
  updateWindowDims := []
  insertedWindowDims := [0]
  scatterDimsToOperandDims := [0]
  indexVectorDim := 1
  wf := scatter_S60000_S500000x1_S500000_n_0_0_1_wf
def scatter_S60000_S400000x1_S400000_n_0_0_1 : ScatterDims S60000 S400000x1 S400000 where
  updateWindowDims := []
  insertedWindowDims := [0]
  scatterDimsToOperandDims := [0]
  indexVectorDim := 1
  wf := scatter_S60000_S400000x1_S400000_n_0_0_1_wf
def dot_S60000x256_S256x256_S60000x256_1_0_0_1_n_n : DotDims S60000x256 S256x256 S60000x256 where
  lhsContracting := [1]
  rhsContracting := [0]
  lhsNonContracting := [0]
  rhsNonContracting := [1]
  lhsBatch := []
  rhsBatch := []
  wf := dot_S60000x256_S256x256_S60000x256_1_0_0_1_n_n_wf
def gather_S60000x256_S500000x1_S500000x256_1_0_n_n_0_1_1256 : GatherDims S60000x256 S500000x1 S500000x256 where
  offsetDims := [1]
  collapsedSliceDims := [0]
  operandBatchingDims := []
  startIndicesBatchingDims := []
  startIndexMap := [0]
  indexVectorDim := 1
  sliceSizes := ![1, 256]
  wf := gather_S60000x256_S500000x1_S500000x256_1_0_n_n_0_1_1256_wf
def scatter_S60000x256_S500000x1_S500000x256_1_0_0_1 : ScatterDims S60000x256 S500000x1 S500000x256 where
  updateWindowDims := [1]
  insertedWindowDims := [0]
  scatterDimsToOperandDims := [0]
  indexVectorDim := 1
  wf := scatter_S60000x256_S500000x1_S500000x256_1_0_0_1_wf
def gather_S60000x256_S400000x1_S400000x256_1_0_n_n_0_1_1256 : GatherDims S60000x256 S400000x1 S400000x256 where
  offsetDims := [1]
  collapsedSliceDims := [0]
  operandBatchingDims := []
  startIndicesBatchingDims := []
  startIndexMap := [0]
  indexVectorDim := 1
  sliceSizes := ![1, 256]
  wf := gather_S60000x256_S400000x1_S400000x256_1_0_n_n_0_1_1256_wf
def scatter_S60000x256_S400000x1_S400000x256_1_0_0_1 : ScatterDims S60000x256 S400000x1 S400000x256 where
  updateWindowDims := [1]
  insertedWindowDims := [0]
  scatterDimsToOperandDims := [0]
  indexVectorDim := 1
  wf := scatter_S60000x256_S400000x1_S400000x256_1_0_0_1_wf
def dot_S10000x256_S256x8_S10000x8_1_0_0_1_n_n : DotDims S10000x256 S256x8 S10000x8 where
  lhsContracting := [1]
  rhsContracting := [0]
  lhsNonContracting := [0]
  rhsNonContracting := [1]
  lhsBatch := []
  rhsBatch := []
  wf := dot_S10000x256_S256x8_S10000x8_1_0_0_1_n_n_wf

class Facts : Prop extends Facts₀ where

variable [Facts]
-- ==== Proof.KernelKept.lean ====
/-
  Buffers that nothing has written yet.

  The kernel program's contents at a boundary between two of its segments are a fold from the launch memory. A stretch
  of host operations changes only the buffers its operations write, and a kernel region only its output array; so an
  argument array, which nothing ever writes, holds its launch contents at every boundary, and a value computed by one
  stretch is still there when a later stretch or region reads it. These are those facts, one per buffer and boundary
  that the value proof reads.
-/
import proofs.«174049_j50079318671420_1_alg».proof.Proof.Gen.KernelIdeal.Frame
import Idealize.ShloMosaic.Lib.StableHlo.Run

set_option maxRecDepth 16384

noncomputable section

namespace Cert.KernelIdeal.Kept

open Idealize.ShloMosaic Idealize.ShloMosaic.TcCoe Idealize.ShloMosaic.StableHlo
open Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## One stretch of host operations, at a buffer it does not write -/

local macro "skip0" : tactic => `(tactic| (dsimp only [W1, hostOps0]; after_results))
local macro "skip1" : tactic => `(tactic| (dsimp only [W3, hostOps1]; after_results))
local macro "skip2" : tactic => `(tactic| (dsimp only [W11, W10, W9, W8, W7, W6, W5, hostOps2_6, hostOps2_5, hostOps2_4, hostOps2_3, hostOps2_2, hostOps2_1, hostOps2]; after_results_simp))
local macro "skip3" : tactic => `(tactic| (dsimp only [W13, hostOps3]; after_results_simp))
local macro "skip4" : tactic => `(tactic| (dsimp only [W19, W18, W17, W16, W15, hostOps4_4, hostOps4_3, hostOps4_2, hostOps4_1, hostOps4]; after_results_simp))

/-! ## The arguments, at the boundaries where they are read -/

theorem W1_arg0 : W1 m ρ c (Proc.devRef .tc main_arg0) = m ((c : Thread nD τ).loc main_arg0) := by skip0
theorem W1_arg2 : W1 m ρ c (Proc.devRef .tc main_arg2) = m ((c : Thread nD τ).loc main_arg2) := by skip0
theorem W1_arg3 : W1 m ρ c (Proc.devRef .tc main_arg3) = m ((c : Thread nD τ).loc main_arg3) := by skip0
theorem W2_arg1 : W2 m ρ c (Proc.devRef .tc main_arg1) = m ((c : Thread nD τ).loc main_arg1) :=
  (W2_of_ne m ρ c main_arg1 (by decide)).trans (by skip0)
theorem W3_arg1 : W3 m ρ c (Proc.devRef .tc main_arg1) = m ((c : Thread nD τ).loc main_arg1) :=
  (show W3 m ρ c (Proc.devRef .tc main_arg1) = W2 m ρ c (Proc.devRef .tc main_arg1) by skip1).trans (W2_arg1 m ρ c)
theorem W2_arg4 : W2 m ρ c (Proc.devRef .tc main_arg4) = m ((c : Thread nD τ).loc main_arg4) :=
  (W2_of_ne m ρ c main_arg4 (by decide)).trans (by skip0)
theorem W3_arg4 : W3 m ρ c (Proc.devRef .tc main_arg4) = m ((c : Thread nD τ).loc main_arg4) :=
  (show W3 m ρ c (Proc.devRef .tc main_arg4) = W2 m ρ c (Proc.devRef .tc main_arg4) by skip1).trans (W2_arg4 m ρ c)
theorem W2_arg5 : W2 m ρ c (Proc.devRef .tc main_arg5) = m ((c : Thread nD τ).loc main_arg5) :=
  (W2_of_ne m ρ c main_arg5 (by decide)).trans (by skip0)
theorem W3_arg5 : W3 m ρ c (Proc.devRef .tc main_arg5) = m ((c : Thread nD τ).loc main_arg5) :=
  (show W3 m ρ c (Proc.devRef .tc main_arg5) = W2 m ρ c (Proc.devRef .tc main_arg5) by skip1).trans (W2_arg5 m ρ c)
theorem W2_arg6 : W2 m ρ c (Proc.devRef .tc main_arg6) = m ((c : Thread nD τ).loc main_arg6) :=
  (W2_of_ne m ρ c main_arg6 (by decide)).trans (by skip0)
theorem W3_arg6 : W3 m ρ c (Proc.devRef .tc main_arg6) = m ((c : Thread nD τ).loc main_arg6) :=
  (show W3 m ρ c (Proc.devRef .tc main_arg6) = W2 m ρ c (Proc.devRef .tc main_arg6) by skip1).trans (W2_arg6 m ρ c)
theorem W2_arg7 : W2 m ρ c (Proc.devRef .tc main_arg7) = m ((c : Thread nD τ).loc main_arg7) :=
  (W2_of_ne m ρ c main_arg7 (by decide)).trans (by skip0)
theorem W3_arg7 : W3 m ρ c (Proc.devRef .tc main_arg7) = m ((c : Thread nD τ).loc main_arg7) :=
  (show W3 m ρ c (Proc.devRef .tc main_arg7) = W2 m ρ c (Proc.devRef .tc main_arg7) by skip1).trans (W2_arg7 m ρ c)
theorem W2_arg8 : W2 m ρ c (Proc.devRef .tc main_arg8) = m ((c : Thread nD τ).loc main_arg8) :=
  (W2_of_ne m ρ c main_arg8 (by decide)).trans (by skip0)
theorem W3_arg8 : W3 m ρ c (Proc.devRef .tc main_arg8) = m ((c : Thread nD τ).loc main_arg8) :=
  (show W3 m ρ c (Proc.devRef .tc main_arg8) = W2 m ρ c (Proc.devRef .tc main_arg8) by skip1).trans (W2_arg8 m ρ c)
theorem W2_arg11 : W2 m ρ c (Proc.devRef .tc main_arg11) = m ((c : Thread nD τ).loc main_arg11) :=
  (W2_of_ne m ρ c main_arg11 (by decide)).trans (by skip0)
theorem W3_arg11 : W3 m ρ c (Proc.devRef .tc main_arg11) = m ((c : Thread nD τ).loc main_arg11) :=
  (show W3 m ρ c (Proc.devRef .tc main_arg11) = W2 m ρ c (Proc.devRef .tc main_arg11) by skip1).trans (W2_arg11 m ρ c)
theorem W2_arg12 : W2 m ρ c (Proc.devRef .tc main_arg12) = m ((c : Thread nD τ).loc main_arg12) :=
  (W2_of_ne m ρ c main_arg12 (by decide)).trans (by skip0)
theorem W3_arg12 : W3 m ρ c (Proc.devRef .tc main_arg12) = m ((c : Thread nD τ).loc main_arg12) :=
  (show W3 m ρ c (Proc.devRef .tc main_arg12) = W2 m ρ c (Proc.devRef .tc main_arg12) by skip1).trans (W2_arg12 m ρ c)
theorem W2_arg13 : W2 m ρ c (Proc.devRef .tc main_arg13) = m ((c : Thread nD τ).loc main_arg13) :=
  (W2_of_ne m ρ c main_arg13 (by decide)).trans (by skip0)
theorem W3_arg13 : W3 m ρ c (Proc.devRef .tc main_arg13) = m ((c : Thread nD τ).loc main_arg13) :=
  (show W3 m ρ c (Proc.devRef .tc main_arg13) = W2 m ρ c (Proc.devRef .tc main_arg13) by skip1).trans (W2_arg13 m ρ c)
theorem W2_arg14 : W2 m ρ c (Proc.devRef .tc main_arg14) = m ((c : Thread nD τ).loc main_arg14) :=
  (W2_of_ne m ρ c main_arg14 (by decide)).trans (by skip0)
theorem W3_arg14 : W3 m ρ c (Proc.devRef .tc main_arg14) = m ((c : Thread nD τ).loc main_arg14) :=
  (show W3 m ρ c (Proc.devRef .tc main_arg14) = W2 m ρ c (Proc.devRef .tc main_arg14) by skip1).trans (W2_arg14 m ρ c)
theorem W2_arg15 : W2 m ρ c (Proc.devRef .tc main_arg15) = m ((c : Thread nD τ).loc main_arg15) :=
  (W2_of_ne m ρ c main_arg15 (by decide)).trans (by skip0)
theorem W3_arg15 : W3 m ρ c (Proc.devRef .tc main_arg15) = m ((c : Thread nD τ).loc main_arg15) :=
  (show W3 m ρ c (Proc.devRef .tc main_arg15) = W2 m ρ c (Proc.devRef .tc main_arg15) by skip1).trans (W2_arg15 m ρ c)
theorem W2_arg16 : W2 m ρ c (Proc.devRef .tc main_arg16) = m ((c : Thread nD τ).loc main_arg16) :=
  (W2_of_ne m ρ c main_arg16 (by decide)).trans (by skip0)
theorem W3_arg16 : W3 m ρ c (Proc.devRef .tc main_arg16) = m ((c : Thread nD τ).loc main_arg16) :=
  (show W3 m ρ c (Proc.devRef .tc main_arg16) = W2 m ρ c (Proc.devRef .tc main_arg16) by skip1).trans (W2_arg16 m ρ c)
theorem W2_arg9 : W2 m ρ c (Proc.devRef .tc main_arg9) = m ((c : Thread nD τ).loc main_arg9) :=
  (W2_of_ne m ρ c main_arg9 (by decide)).trans (by skip0)
theorem W3_arg9 : W3 m ρ c (Proc.devRef .tc main_arg9) = m ((c : Thread nD τ).loc main_arg9) :=
  (show W3 m ρ c (Proc.devRef .tc main_arg9) = W2 m ρ c (Proc.devRef .tc main_arg9) by skip1).trans (W2_arg9 m ρ c)
theorem W2_arg10 : W2 m ρ c (Proc.devRef .tc main_arg10) = m ((c : Thread nD τ).loc main_arg10) :=
  (W2_of_ne m ρ c main_arg10 (by decide)).trans (by skip0)
theorem W3_arg10 : W3 m ρ c (Proc.devRef .tc main_arg10) = m ((c : Thread nD τ).loc main_arg10) :=
  (show W3 m ρ c (Proc.devRef .tc main_arg10) = W2 m ρ c (Proc.devRef .tc main_arg10) by skip1).trans (W2_arg10 m ρ c)
theorem W4_arg6 : W4 m ρ c (Proc.devRef .tc main_arg6) = m ((c : Thread nD τ).loc main_arg6) :=
  (W4_of_ne m ρ c main_arg6 (by decide)).trans (W3_arg6 m ρ c)
theorem W11_arg6 : W11 m ρ c (Proc.devRef .tc main_arg6) = m ((c : Thread nD τ).loc main_arg6) :=
  (show W11 m ρ c (Proc.devRef .tc main_arg6) = W4 m ρ c (Proc.devRef .tc main_arg6) by skip2).trans (W4_arg6 m ρ c)
theorem W12_arg6 : W12 m ρ c (Proc.devRef .tc main_arg6) = m ((c : Thread nD τ).loc main_arg6) :=
  (W12_of_ne m ρ c main_arg6 (by decide)).trans (W11_arg6 m ρ c)
theorem W4_arg7 : W4 m ρ c (Proc.devRef .tc main_arg7) = m ((c : Thread nD τ).loc main_arg7) :=
  (W4_of_ne m ρ c main_arg7 (by decide)).trans (W3_arg7 m ρ c)
theorem W11_arg7 : W11 m ρ c (Proc.devRef .tc main_arg7) = m ((c : Thread nD τ).loc main_arg7) :=
  (show W11 m ρ c (Proc.devRef .tc main_arg7) = W4 m ρ c (Proc.devRef .tc main_arg7) by skip2).trans (W4_arg7 m ρ c)
theorem W12_arg7 : W12 m ρ c (Proc.devRef .tc main_arg7) = m ((c : Thread nD τ).loc main_arg7) :=
  (W12_of_ne m ρ c main_arg7 (by decide)).trans (W11_arg7 m ρ c)
theorem W4_arg8 : W4 m ρ c (Proc.devRef .tc main_arg8) = m ((c : Thread nD τ).loc main_arg8) :=
  (W4_of_ne m ρ c main_arg8 (by decide)).trans (W3_arg8 m ρ c)
theorem W11_arg8 : W11 m ρ c (Proc.devRef .tc main_arg8) = m ((c : Thread nD τ).loc main_arg8) :=
  (show W11 m ρ c (Proc.devRef .tc main_arg8) = W4 m ρ c (Proc.devRef .tc main_arg8) by skip2).trans (W4_arg8 m ρ c)
theorem W12_arg8 : W12 m ρ c (Proc.devRef .tc main_arg8) = m ((c : Thread nD τ).loc main_arg8) :=
  (W12_of_ne m ρ c main_arg8 (by decide)).trans (W11_arg8 m ρ c)
theorem W4_arg11 : W4 m ρ c (Proc.devRef .tc main_arg11) = m ((c : Thread nD τ).loc main_arg11) :=
  (W4_of_ne m ρ c main_arg11 (by decide)).trans (W3_arg11 m ρ c)
theorem W11_arg11 : W11 m ρ c (Proc.devRef .tc main_arg11) = m ((c : Thread nD τ).loc main_arg11) :=
  (show W11 m ρ c (Proc.devRef .tc main_arg11) = W4 m ρ c (Proc.devRef .tc main_arg11) by skip2).trans (W4_arg11 m ρ c)
theorem W12_arg11 : W12 m ρ c (Proc.devRef .tc main_arg11) = m ((c : Thread nD τ).loc main_arg11) :=
  (W12_of_ne m ρ c main_arg11 (by decide)).trans (W11_arg11 m ρ c)
theorem W4_arg12 : W4 m ρ c (Proc.devRef .tc main_arg12) = m ((c : Thread nD τ).loc main_arg12) :=
  (W4_of_ne m ρ c main_arg12 (by decide)).trans (W3_arg12 m ρ c)
theorem W11_arg12 : W11 m ρ c (Proc.devRef .tc main_arg12) = m ((c : Thread nD τ).loc main_arg12) :=
  (show W11 m ρ c (Proc.devRef .tc main_arg12) = W4 m ρ c (Proc.devRef .tc main_arg12) by skip2).trans (W4_arg12 m ρ c)
theorem W12_arg12 : W12 m ρ c (Proc.devRef .tc main_arg12) = m ((c : Thread nD τ).loc main_arg12) :=
  (W12_of_ne m ρ c main_arg12 (by decide)).trans (W11_arg12 m ρ c)
theorem W4_arg13 : W4 m ρ c (Proc.devRef .tc main_arg13) = m ((c : Thread nD τ).loc main_arg13) :=
  (W4_of_ne m ρ c main_arg13 (by decide)).trans (W3_arg13 m ρ c)
theorem W11_arg13 : W11 m ρ c (Proc.devRef .tc main_arg13) = m ((c : Thread nD τ).loc main_arg13) :=
  (show W11 m ρ c (Proc.devRef .tc main_arg13) = W4 m ρ c (Proc.devRef .tc main_arg13) by skip2).trans (W4_arg13 m ρ c)
theorem W12_arg13 : W12 m ρ c (Proc.devRef .tc main_arg13) = m ((c : Thread nD τ).loc main_arg13) :=
  (W12_of_ne m ρ c main_arg13 (by decide)).trans (W11_arg13 m ρ c)
theorem W4_arg14 : W4 m ρ c (Proc.devRef .tc main_arg14) = m ((c : Thread nD τ).loc main_arg14) :=
  (W4_of_ne m ρ c main_arg14 (by decide)).trans (W3_arg14 m ρ c)
theorem W11_arg14 : W11 m ρ c (Proc.devRef .tc main_arg14) = m ((c : Thread nD τ).loc main_arg14) :=
  (show W11 m ρ c (Proc.devRef .tc main_arg14) = W4 m ρ c (Proc.devRef .tc main_arg14) by skip2).trans (W4_arg14 m ρ c)
theorem W12_arg14 : W12 m ρ c (Proc.devRef .tc main_arg14) = m ((c : Thread nD τ).loc main_arg14) :=
  (W12_of_ne m ρ c main_arg14 (by decide)).trans (W11_arg14 m ρ c)
theorem W4_arg15 : W4 m ρ c (Proc.devRef .tc main_arg15) = m ((c : Thread nD τ).loc main_arg15) :=
  (W4_of_ne m ρ c main_arg15 (by decide)).trans (W3_arg15 m ρ c)
theorem W11_arg15 : W11 m ρ c (Proc.devRef .tc main_arg15) = m ((c : Thread nD τ).loc main_arg15) :=
  (show W11 m ρ c (Proc.devRef .tc main_arg15) = W4 m ρ c (Proc.devRef .tc main_arg15) by skip2).trans (W4_arg15 m ρ c)
theorem W12_arg15 : W12 m ρ c (Proc.devRef .tc main_arg15) = m ((c : Thread nD τ).loc main_arg15) :=
  (W12_of_ne m ρ c main_arg15 (by decide)).trans (W11_arg15 m ρ c)
theorem W4_arg16 : W4 m ρ c (Proc.devRef .tc main_arg16) = m ((c : Thread nD τ).loc main_arg16) :=
  (W4_of_ne m ρ c main_arg16 (by decide)).trans (W3_arg16 m ρ c)
theorem W11_arg16 : W11 m ρ c (Proc.devRef .tc main_arg16) = m ((c : Thread nD τ).loc main_arg16) :=
  (show W11 m ρ c (Proc.devRef .tc main_arg16) = W4 m ρ c (Proc.devRef .tc main_arg16) by skip2).trans (W4_arg16 m ρ c)
theorem W12_arg16 : W12 m ρ c (Proc.devRef .tc main_arg16) = m ((c : Thread nD τ).loc main_arg16) :=
  (W12_of_ne m ρ c main_arg16 (by decide)).trans (W11_arg16 m ρ c)
theorem W4_arg9 : W4 m ρ c (Proc.devRef .tc main_arg9) = m ((c : Thread nD τ).loc main_arg9) :=
  (W4_of_ne m ρ c main_arg9 (by decide)).trans (W3_arg9 m ρ c)
theorem W11_arg9 : W11 m ρ c (Proc.devRef .tc main_arg9) = m ((c : Thread nD τ).loc main_arg9) :=
  (show W11 m ρ c (Proc.devRef .tc main_arg9) = W4 m ρ c (Proc.devRef .tc main_arg9) by skip2).trans (W4_arg9 m ρ c)
theorem W12_arg9 : W12 m ρ c (Proc.devRef .tc main_arg9) = m ((c : Thread nD τ).loc main_arg9) :=
  (W12_of_ne m ρ c main_arg9 (by decide)).trans (W11_arg9 m ρ c)
theorem W4_arg10 : W4 m ρ c (Proc.devRef .tc main_arg10) = m ((c : Thread nD τ).loc main_arg10) :=
  (W4_of_ne m ρ c main_arg10 (by decide)).trans (W3_arg10 m ρ c)
theorem W11_arg10 : W11 m ρ c (Proc.devRef .tc main_arg10) = m ((c : Thread nD τ).loc main_arg10) :=
  (show W11 m ρ c (Proc.devRef .tc main_arg10) = W4 m ρ c (Proc.devRef .tc main_arg10) by skip2).trans (W4_arg10 m ρ c)
theorem W12_arg10 : W12 m ρ c (Proc.devRef .tc main_arg10) = m ((c : Thread nD τ).loc main_arg10) :=
  (W12_of_ne m ρ c main_arg10 (by decide)).trans (W11_arg10 m ρ c)
theorem W13_arg9 : W13 m ρ c (Proc.devRef .tc main_arg9) = m ((c : Thread nD τ).loc main_arg9) :=
  (show W13 m ρ c (Proc.devRef .tc main_arg9) = W12 m ρ c (Proc.devRef .tc main_arg9) by skip3).trans (W12_arg9 m ρ c)
theorem W14_arg9 : W14 m ρ c (Proc.devRef .tc main_arg9) = m ((c : Thread nD τ).loc main_arg9) :=
  (W14_of_ne m ρ c main_arg9 (by decide)).trans (W13_arg9 m ρ c)
theorem W13_arg10 : W13 m ρ c (Proc.devRef .tc main_arg10) = m ((c : Thread nD τ).loc main_arg10) :=
  (show W13 m ρ c (Proc.devRef .tc main_arg10) = W12 m ρ c (Proc.devRef .tc main_arg10) by skip3).trans (W12_arg10 m ρ c)
theorem W14_arg10 : W14 m ρ c (Proc.devRef .tc main_arg10) = m ((c : Thread nD τ).loc main_arg10) :=
  (W14_of_ne m ρ c main_arg10 (by decide)).trans (W13_arg10 m ρ c)

/-! ## Values of one stretch read by a later one -/

theorem W4_v1 : W4 m ρ c (Proc.devRef .tc main_v1) = W2 m ρ c (Proc.devRef .tc main_v1) :=
  (W4_of_ne m ρ c main_v1 (by decide)).trans (by skip1)
theorem W12_v6 : W12 m ρ c (Proc.devRef .tc main_v6) = W11 m ρ c (Proc.devRef .tc main_v6) := W12_of_ne m ρ c main_v6 (by decide)
theorem W12_v8 : W12 m ρ c (Proc.devRef .tc main_v8) = W11 m ρ c (Proc.devRef .tc main_v8) := W12_of_ne m ρ c main_v8 (by decide)
theorem W12_v20 : W12 m ρ c (Proc.devRef .tc main_v20) = W11 m ρ c (Proc.devRef .tc main_v20) := W12_of_ne m ρ c main_v20 (by decide)
theorem W12_v32 : W12 m ρ c (Proc.devRef .tc main_v32) = W11 m ρ c (Proc.devRef .tc main_v32) := W12_of_ne m ρ c main_v32 (by decide)
theorem W12_v44 : W12 m ρ c (Proc.devRef .tc main_v44) = W11 m ρ c (Proc.devRef .tc main_v44) := W12_of_ne m ρ c main_v44 (by decide)
theorem W13_v92 : W13 m ρ c (Proc.devRef .tc main_v92) = W12 m ρ c (Proc.devRef .tc main_v92) := by skip3

end Cert.KernelIdeal.Kept

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibAffineRow.lean ====
/-
  A general fact about a dense layer whose bias is already a one-row matrix, at the ideal values.

  A kernel's matrix product with the plain dimension numbers (rows by columns, one contracted axis, no batch axis)
  accumulated into the zero splat, plus a bias kept as a [1, n] row (cast to its own shape, as a block load leaves it) and
  broadcast down the rows, read at entry (r, c), is the inner product of row r of the left factor with column c of the
  right one plus the bias's entry c; and the same number as one function `affine A B b` of the output index, so that a
  tiled kernel's output array can be stated as that one function of its three input arrays.
-/
import Idealize.ShloMosaic.Lib.ValueIdx
import Idealize.ShloMosaic.Lib.ValueLayout
import Idealize.ShloMosaic.Lib.Pipeline.Value
import Idealize.ShloMosaic.PureOps.Ideal.Laws
import proofs.«174049_j50079318671420_1_alg».proof.Proof.LibMatmulPlain

noncomputable section

open scoped BigOperators

namespace Cert.LibAffineRow

open Idealize.ShloMosaic Idealize.ShloMosaic.ValueIdx

/-- A matrix product with the plain dimension numbers into the zero splat, plus a one-row bias (cast to its own shape)
    broadcast down the rows, at entry (r, c): the inner product of row r with column c, plus the bias's entry c. -/
theorem affine_row_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix2 (0 : Fin 1) c) := by
  subst hdd
  rw [addf_apply, Cert.LibMatmulPlain.matmul_plain_zero_apply, broadcastTo_1b_ab_apply, shapeCast_self]

/-- The affine map of a matrix A [m, k], weights B [k, n] and a one-row bias b [1, n], as one function of the output index. -/
def affine {m k n : Nat} (A : (⟨2, ![m, k]⟩ : Shape).Idx → EReal) (B : (⟨2, ![k, n]⟩ : Shape).Idx → EReal)
    (b : (⟨2, ![1, n]⟩ : Shape).Idx → EReal) : (⟨2, ![m, n]⟩ : Shape).Idx → EReal :=
  fun i => (∑ κ : Fin k, A (ix2 (⟨(i 0).val, idx2_lt0 i⟩ : Fin m) κ) * B (ix2 κ (⟨(i 1).val, idx2_lt1 i⟩ : Fin n)))
    + b (ix2 (0 : Fin 1) (⟨(i 1).val, idx2_lt1 i⟩ : Fin n))

/-- At the index with coordinates (r, q) it is the inner product of row r with column q, plus the bias's entry q. -/
theorem affine_ix2 {m k n : Nat} (A : (⟨2, ![m, k]⟩ : Shape).Idx → EReal) (B : (⟨2, ![k, n]⟩ : Shape).Idx → EReal)
    (b : (⟨2, ![1, n]⟩ : Shape).Idx → EReal) (r : Fin m) (q : Fin n) :
    affine A B b (ix2 r q) = (∑ κ : Fin k, A (ix2 r κ) * B (ix2 κ q)) + b (ix2 (0 : Fin 1) q) := rfl

end Cert.LibAffineRow

end
-- ==== Proof.RegionAffine.lean ====
/-
  The three "matrix product plus bias" regions of the kernel, each read at an entry of its output array.

  A region's output [rows, N] is written in blocks of 1000 rows. The block written at grid point t is x_t · W + b, where x_t
  is rows 1000·t … 1000·t + 999 of the input [rows, K], W is the whole weight matrix [K, N], and b is the one-row bias [1, N]
  laid along every row. The blocks tile the output, so after the region its entry (r, q) is ∑_k x[r, k] · W[k, q] + b[0, q],
  the three input arrays being the contents the region is entered with.
-/
import proofs.«174049_j50079318671420_1_alg».proof.Proof.Gen.KernelIdeal.Frame
import proofs.«174049_j50079318671420_1_alg».proof.Proof.LibMatmulPlain
import proofs.«174049_j50079318671420_1_alg».proof.Proof.LibAffineRow
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionAffine

open Cert.KernelIdeal Cert.KernelIdeal.Gen Cert.LibAffineRow

/-- The zero offsets of a whole-block store, as the constant function. -/
theorem hz : (![0, 0] : Fin 2 → Nat) = fun _ => 0 := funext fun a => by fin_cases a <;> rfl

/-! ## Region 0: rows 10000, K = 768, N = 256 -/

section Region0
variable (V : (c : Dev nD) → (b : Ref sig .tc) → Buf (Elt Ideal) ((c : Thread nD τ).loc b))

/-- The payload of region 0 at an entry of its block. -/
theorem pay0_apply (x0 : Vec Ideal S1000x768 .f32) (x1 : Vec Ideal S768x256 .f32) (x2 : Vec Ideal S1x256 .f32)
    (p : Fin 1000) (q : Fin 256) :
    k0_pay1 (F := Ideal) x0 x1 x2 (ix2 p q) = (∑ κ : Fin 768, x0 (ix2 p κ) * x1 (ix2 κ q)) + x2 (ix2 (0 : Fin 1) q) := by
  unfold k0_pay1
  exact affine_row_apply dot_S1000x768_S768x256_S1000x256_1_0_0_1_n_n rfl none (truncf .bf16 x0 bitsLt_bf16_f32)
    (truncf .bf16 x1 bitsLt_bf16_f32) x2 shapeCasts_S1x256_S1x256 broadcasts_S1x256_S1000x256 p q

/-- The printed index maps over the grid: the input rows and the output rows move with the point, the weights and the
    bias stay at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the input's block at point t is row 1000·t + p of the input. -/
theorem read0_x (X : S10000x768.Idx → EReal) (t : Fin cfg0.N) (p : Fin 1000) (κ : Fin 768) (h : 1000 * t.val + p.val < 10000) :
    ((cfg0.win 0).blk t).view.read (Elt Ideal) X (ix2 p κ) = X (ix2 (⟨1000 * t.val + p.val, h⟩ : Fin 10000) κ) := by
  obtain ⟨e0, e1, -⟩ := idx0 t
  show X (((cfg0.win 0).blk t).view.emb (ix2 p κ)) = X _
  refine congrArg X (funext fun a => Fin.ext ?_)
  match a with
  | ⟨0, _⟩ => show win0_0.index t (0 : Fin 2) * 1000 + 1 * p.val = 1000 * t.val + p.val; omega
  | ⟨1, _⟩ => show win0_0.index t (1 : Fin 2) * 768 + 1 * κ.val = κ.val; omega

/-- The weights' block at every point is the whole weight matrix. -/
theorem read0_w (X : S768x256.Idx → EReal) (t : Fin cfg0.N) (κ : Fin 768) (q : Fin 256) :
    ((cfg0.win 1).blk t).view.read (Elt Ideal) X (ix2 κ q) = X (ix2 κ q) := by
  obtain ⟨-, -, e0, e1, -⟩ := idx0 t
  show X (((cfg0.win 1).blk t).view.emb (ix2 κ q)) = X _
  refine congrArg X (funext fun a => Fin.ext ?_)
  match a with
  | ⟨0, _⟩ => show win0_1.index t (0 : Fin 2) * 768 + 1 * κ.val = κ.val; omega
  | ⟨1, _⟩ => show win0_1.index t (1 : Fin 2) * 256 + 1 * q.val = q.val; omega

/-- The bias's block at every point is the whole bias row. -/
theorem read0_b (X : S1x256.Idx → EReal) (t : Fin cfg0.N) (q : Fin 256) :
    ((cfg0.win 2).blk t).view.read (Elt Ideal) X (ix2 (0 : Fin 1) q) = X (ix2 (0 : Fin 1) q) := by
  obtain ⟨-, -, -, -, e0, e1, -⟩ := idx0 t
  show X (((cfg0.win 2).blk t).view.emb (ix2 (0 : Fin 1) q)) = X _
  refine congrArg X (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 256 + 1 * q.val = q.val; omega

/-- Entry (p, q) of the output's block at point t sits at (1000·t + p, q) of the output. -/
theorem emb0_out (t : Fin cfg0.N) (p : Fin 1000) (q : Fin 256) (h : 1000 * t.val + p.val < 10000) :
    ((cfg0.win 3).blk t).view.emb (ix2 p q) = (ix2 (⟨1000 * t.val + p.val, h⟩ : Fin 10000) q : S10000x256.Idx) := by
  obtain ⟨-, -, -, -, -, -, e0, e1⟩ := idx0 t
  refine funext fun a => Fin.ext ?_
  match a with
  | ⟨0, _⟩ => show win0_3.index t (0 : Fin 2) * 1000 + 1 * p.val = 1000 * t.val + p.val; omega
  | ⟨1, _⟩ => show win0_3.index t (1 : Fin 2) * 256 + 1 * q.val = q.val; omega

/-- What point t writes back is block t of the affine map of the three input arrays as the region finds them. -/
theorem flushed0_eq (c : Dev nD) (t : Fin cfg0.N) :
    (dat0 (F := Ideal) V c).flushed 3 t
      = ((cfg0.win 3).blk t).view.read (Elt Ideal)
          (affine (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S1000x768) hz, View.ld_unit_zero (S := S768x256) hz, View.ld_unit_zero (S := S1x256) hz]
  funext j
  obtain ⟨p, q, rfl⟩ : ∃ (p : Fin 1000) (q : Fin 256), j = ix2 p q := ⟨j 0, j 1, eq_ix2 j⟩
  have ht : t.val < 10 := t.isLt.trans_eq N_0
  have hr : 1000 * t.val + p.val < 10000 := by have := p.isLt; omega
  show k0_pay1 (iblk0 V c 0 t) (iblk0 V c 1 t) (iblk0 V c 2 t) (ix2 p q)
    = affine (V c (Pipeline.arrRef spec0 0)) (V c (Pipeline.arrRef spec0 1)) (V c (Pipeline.arrRef spec0 2))
        (((cfg0.win 3).blk t).view.emb (ix2 p q))
  rw [emb0_out t p q hr, affine_ix2]
  refine (pay0_apply (iblk0 V c 0 t) (iblk0 V c 1 t) (iblk0 V c 2 t) p q).trans ?_
  refine congrArg₂ (· + ·) (Finset.sum_congr rfl fun κ _ => congrArg₂ (· * ·) ?_ ?_) ?_
  · exact read0_x (V c (Pipeline.arrRef spec0 0)) t p κ hr
  · exact read0_w (V c (Pipeline.arrRef spec0 1)) t κ q
  · exact read0_b (V c (Pipeline.arrRef spec0 2)) t q

/-- An index of the output is in point t's block iff each coordinate is in the block's range on its axis. -/
theorem mem_blk0 (t : Fin cfg0.N) (i : S10000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v1).slice (win0_3.rect t)).set ↔ _
  rw [View.set_slice_whole, Rect.mem_set_unit]
  exact Iff.rfl

/-- Every index of the output is in the block of the point that its row, divided by 1000, names. -/
theorem cover0 (i : S10000x256.Idx) :
    ∃ t : Fin cfg0.N, (cfg0.win 3).flush t = true ∧ i ∈ ((cfg0.win 3).blk t).view.set := by
  have h0 : (i 0).val < 10000 := (i 0).isLt
  have h1 : (i 1).val < 256 := (i 1).isLt
  obtain ⟨t, ht⟩ : ∃ t : Fin cfg0.N, t.val = (i 0).val / 1000 :=
    ⟨⟨(i 0).val / 1000, by rw [show cfg0.N = 10 from N_0]; omega⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 1000 ≤ (i 0).val ∧ (i 0).val < win0_3.index t (0 : Fin 2) * 1000 + 1000
    omega
  | ⟨1, _⟩ =>
    show win0_3.index t (1 : Fin 2) * 256 ≤ (i 1).val ∧ (i 1).val < win0_3.index t (1 : Fin 2) * 256 + 256
    omega

/-- The output array after region 0: the affine map of the three input arrays as the region finds them. -/
theorem final0 (c : Dev nD) :
    (dat0 (F := Ideal) V c).arrAt 3 cfg0.N
      = affine (V c (Pipeline.arrRef spec0 0)) (V c (Pipeline.arrRef spec0 1)) (V c (Pipeline.arrRef spec0 2)) :=
  (dat0 V c).arrAt_eq_of_cover 3 _ (fun t _ => flushed0_eq V c t) cover0

/-- REGION 0 AT AN ENTRY, in the three input arrays as the region finds them: `affine_ix2` opens the right side to
    ∑_k x[r, k] · W[k, q] + b[0, q]. -/
theorem region0_apply (c : Dev nD) (r : Fin 10000) (q : Fin 256) :
    (dat0 (F := Ideal) V c).arrAt 3 cfg0.N (ix2 r q)
      = affine (V c (Pipeline.arrRef spec0 0)) (V c (Pipeline.arrRef spec0 1)) (V c (Pipeline.arrRef spec0 2)) (ix2 r q) :=
  congrFun (final0 V c) (ix2 r q)

/-- REGION 0 AT AN ENTRY, the three input arrays named: ∑_k x[r, k] · W[k, q] + b[0, q]. -/
theorem region0_apply_of (c : Dev nD) (A : S10000x768.Idx → EReal) (B : S768x256.Idx → EReal) (b : S1x256.Idx → EReal)
    (hA : V c (Pipeline.arrRef spec0 0) = A) (hB : V c (Pipeline.arrRef spec0 1) = B) (hb : V c (Pipeline.arrRef spec0 2) = b)
    (r : Fin 10000) (q : Fin 256) :
    (dat0 (F := Ideal) V c).arrAt 3 cfg0.N (ix2 r q)
      = (∑ k : Fin 768, A (ix2 r k) * B (ix2 k q)) + b (ix2 (0 : Fin 1) q) := by
  subst hA hB hb
  exact (region0_apply V c r q).trans (affine_ix2 _ _ _ r q)

end Region0

/-! ## Region 1: rows 50000, K = 768, N = 256 -/

section Region1
variable (V : (c : Dev nD) → (b : Ref sig .tc) → Buf (Elt Ideal) ((c : Thread nD τ).loc b))

/-- The payload of region 1 at an entry of its block. -/
theorem pay1_apply (x0 : Vec Ideal S1000x768 .f32) (x1 : Vec Ideal S768x256 .f32) (x2 : Vec Ideal S1x256 .f32)
    (p : Fin 1000) (q : Fin 256) :
    k1_pay1 (F := Ideal) x0 x1 x2 (ix2 p q) = (∑ κ : Fin 768, x0 (ix2 p κ) * x1 (ix2 κ q)) + x2 (ix2 (0 : Fin 1) q) := by
  unfold k1_pay1
  exact affine_row_apply dot_S1000x768_S768x256_S1000x256_1_0_0_1_n_n rfl none (truncf .bf16 x0 bitsLt_bf16_f32)
    (truncf .bf16 x1 bitsLt_bf16_f32) x2 shapeCasts_S1x256_S1x256 broadcasts_S1x256_S1000x256 p q

/-- The printed index maps over the grid: the input rows and the output rows move with the point, the weights and the
    bias stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the input's block at point t is row 1000·t + p of the input. -/
theorem read1_x (X : S50000x768.Idx → EReal) (t : Fin cfg1.N) (p : Fin 1000) (κ : Fin 768) (h : 1000 * t.val + p.val < 50000) :
    ((cfg1.win 0).blk t).view.read (Elt Ideal) X (ix2 p κ) = X (ix2 (⟨1000 * t.val + p.val, h⟩ : Fin 50000) κ) := by
  obtain ⟨e0, e1, -⟩ := idx1 t
  show X (((cfg1.win 0).blk t).view.emb (ix2 p κ)) = X _
  refine congrArg X (funext fun a => Fin.ext ?_)
  match a with
  | ⟨0, _⟩ => show win1_0.index t (0 : Fin 2) * 1000 + 1 * p.val = 1000 * t.val + p.val; omega
  | ⟨1, _⟩ => show win1_0.index t (1 : Fin 2) * 768 + 1 * κ.val = κ.val; omega

/-- The weights' block at every point is the whole weight matrix. -/
theorem read1_w (X : S768x256.Idx → EReal) (t : Fin cfg1.N) (κ : Fin 768) (q : Fin 256) :
    ((cfg1.win 1).blk t).view.read (Elt Ideal) X (ix2 κ q) = X (ix2 κ q) := by
  obtain ⟨-, -, e0, e1, -⟩ := idx1 t
  show X (((cfg1.win 1).blk t).view.emb (ix2 κ q)) = X _
  refine congrArg X (funext fun a => Fin.ext ?_)
  match a with
  | ⟨0, _⟩ => show win1_1.index t (0 : Fin 2) * 768 + 1 * κ.val = κ.val; omega
  | ⟨1, _⟩ => show win1_1.index t (1 : Fin 2) * 256 + 1 * q.val = q.val; omega

/-- The bias's block at every point is the whole bias row. -/
theorem read1_b (X : S1x256.Idx → EReal) (t : Fin cfg1.N) (q : Fin 256) :
    ((cfg1.win 2).blk t).view.read (Elt Ideal) X (ix2 (0 : Fin 1) q) = X (ix2 (0 : Fin 1) q) := by
  obtain ⟨-, -, -, -, e0, e1, -⟩ := idx1 t
  show X (((cfg1.win 2).blk t).view.emb (ix2 (0 : Fin 1) q)) = X _
  refine congrArg X (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 256 + 1 * q.val = q.val; omega

/-- Entry (p, q) of the output's block at point t sits at (1000·t + p, q) of the output. -/
theorem emb1_out (t : Fin cfg1.N) (p : Fin 1000) (q : Fin 256) (h : 1000 * t.val + p.val < 50000) :
    ((cfg1.win 3).blk t).view.emb (ix2 p q) = (ix2 (⟨1000 * t.val + p.val, h⟩ : Fin 50000) q : S50000x256.Idx) := by
  obtain ⟨-, -, -, -, -, -, e0, e1⟩ := idx1 t
  refine funext fun a => Fin.ext ?_
  match a with
  | ⟨0, _⟩ => show win1_3.index t (0 : Fin 2) * 1000 + 1 * p.val = 1000 * t.val + p.val; omega
  | ⟨1, _⟩ => show win1_3.index t (1 : Fin 2) * 256 + 1 * q.val = q.val; omega

/-- What point t writes back is block t of the affine map of the three input arrays as the region finds them. -/
theorem flushed1_eq (c : Dev nD) (t : Fin cfg1.N) :
    (dat1 (F := Ideal) V c).flushed 3 t
      = ((cfg1.win 3).blk t).view.read (Elt Ideal)
          (affine (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S1000x768) hz, View.ld_unit_zero (S := S768x256) hz, View.ld_unit_zero (S := S1x256) hz]
  funext j
  obtain ⟨p, q, rfl⟩ : ∃ (p : Fin 1000) (q : Fin 256), j = ix2 p q := ⟨j 0, j 1, eq_ix2 j⟩
  have ht : t.val < 50 := t.isLt.trans_eq N_1
  have hr : 1000 * t.val + p.val < 50000 := by have := p.isLt; omega
  show k1_pay1 (iblk1 V c 0 t) (iblk1 V c 1 t) (iblk1 V c 2 t) (ix2 p q)
    = affine (V c (Pipeline.arrRef spec1 0)) (V c (Pipeline.arrRef spec1 1)) (V c (Pipeline.arrRef spec1 2))
        (((cfg1.win 3).blk t).view.emb (ix2 p q))
  rw [emb1_out t p q hr, affine_ix2]
  refine (pay1_apply (iblk1 V c 0 t) (iblk1 V c 1 t) (iblk1 V c 2 t) p q).trans ?_
  refine congrArg₂ (· + ·) (Finset.sum_congr rfl fun κ _ => congrArg₂ (· * ·) ?_ ?_) ?_
  · exact read1_x (V c (Pipeline.arrRef spec1 0)) t p κ hr
  · exact read1_w (V c (Pipeline.arrRef spec1 1)) t κ q
  · exact read1_b (V c (Pipeline.arrRef spec1 2)) t q

/-- An index of the output is in point t's block iff each coordinate is in the block's range on its axis. -/
theorem mem_blk1 (t : Fin cfg1.N) (i : S50000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v3).slice (win1_3.rect t)).set ↔ _
  rw [View.set_slice_whole, Rect.mem_set_unit]
  exact Iff.rfl

/-- Every index of the output is in the block of the point that its row, divided by 1000, names. -/
theorem cover1 (i : S50000x256.Idx) :
    ∃ t : Fin cfg1.N, (cfg1.win 3).flush t = true ∧ i ∈ ((cfg1.win 3).blk t).view.set := by
  have h0 : (i 0).val < 50000 := (i 0).isLt
  have h1 : (i 1).val < 256 := (i 1).isLt
  obtain ⟨t, ht⟩ : ∃ t : Fin cfg1.N, t.val = (i 0).val / 1000 :=
    ⟨⟨(i 0).val / 1000, by rw [show cfg1.N = 50 from N_1]; omega⟩, rfl⟩
  obtain ⟨-, -, -, -, -, -, e0, e1⟩ := idx1 t
  refine ⟨t, flush1_3 t, ?_⟩
  rw [mem_blk1]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 256 ≤ (i 1).val ∧ (i 1).val < win1_3.index t (1 : Fin 2) * 256 + 256
    omega

/-- The output array after region 1: the affine map of the three input arrays as the region finds them. -/
theorem final1 (c : Dev nD) :
    (dat1 (F := Ideal) V c).arrAt 3 cfg1.N
      = affine (V c (Pipeline.arrRef spec1 0)) (V c (Pipeline.arrRef spec1 1)) (V c (Pipeline.arrRef spec1 2)) :=
  (dat1 V c).arrAt_eq_of_cover 3 _ (fun t _ => flushed1_eq V c t) cover1

/-- REGION 1 AT AN ENTRY, in the three input arrays as the region finds them: `affine_ix2` opens the right side to
    ∑_k x[r, k] · W[k, q] + b[0, q]. -/
theorem region1_apply (c : Dev nD) (r : Fin 50000) (q : Fin 256) :
    (dat1 (F := Ideal) V c).arrAt 3 cfg1.N (ix2 r q)
      = affine (V c (Pipeline.arrRef spec1 0)) (V c (Pipeline.arrRef spec1 1)) (V c (Pipeline.arrRef spec1 2)) (ix2 r q) :=
  congrFun (final1 V c) (ix2 r q)

/-- REGION 1 AT AN ENTRY, the three input arrays named: ∑_k x[r, k] · W[k, q] + b[0, q]. -/
theorem region1_apply_of (c : Dev nD) (A : S50000x768.Idx → EReal) (B : S768x256.Idx → EReal) (b : S1x256.Idx → EReal)
    (hA : V c (Pipeline.arrRef spec1 0) = A) (hB : V c (Pipeline.arrRef spec1 1) = B) (hb : V c (Pipeline.arrRef spec1 2) = b)
    (r : Fin 50000) (q : Fin 256) :
    (dat1 (F := Ideal) V c).arrAt 3 cfg1.N (ix2 r q)
      = (∑ k : Fin 768, A (ix2 r k) * B (ix2 k q)) + b (ix2 (0 : Fin 1) q) := by
  subst hA hB hb
  exact (region1_apply V c r q).trans (affine_ix2 _ _ _ r q)

end Region1

/-! ## Region 4: rows 10000, K = 256, N = 128 -/

section Region4
variable (V : (c : Dev nD) → (b : Ref sig .tc) → Buf (Elt Ideal) ((c : Thread nD τ).loc b))

/-- The payload of region 4 at an entry of its block (it first casts the rows and the weights to their own shapes, which changes
    nothing). -/
theorem pay4_apply (x0 : Vec Ideal S1000x256 .f32) (x1 : Vec Ideal S256x128 .f32) (x2 : Vec Ideal S1x128 .f32)
    (p : Fin 1000) (q : Fin 128) :
    k4_pay1 (F := Ideal) x0 x1 x2 (ix2 p q) = (∑ κ : Fin 256, x0 (ix2 p κ) * x1 (ix2 κ q)) + x2 (ix2 (0 : Fin 1) q) := by
  unfold k4_pay1
  refine (affine_row_apply dot_S1000x256_S256x128_S1000x128_1_0_0_1_n_n rfl none
    (truncf .bf16 (shapeCast S1000x256 x0 shapeCasts_S1000x256_S1000x256) bitsLt_bf16_f32)
    (truncf .bf16 (shapeCast S256x128 x1 shapeCasts_S256x128_S256x128) bitsLt_bf16_f32) x2 shapeCasts_S1x128_S1x128
    broadcasts_S1x128_S1000x128 p q).trans ?_
  rw [shapeCast_self x0, shapeCast_self x1]
  rfl

/-- The printed index maps over the grid: the input rows and the output rows move with the point, the weights and the
    bias stay at block (0, 0). -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the input's block at point t is row 1000·t + p of the input. -/
theorem read4_x (X : S10000x256.Idx → EReal) (t : Fin cfg4.N) (p : Fin 1000) (κ : Fin 256) (h : 1000 * t.val + p.val < 10000) :
    ((cfg4.win 0).blk t).view.read (Elt Ideal) X (ix2 p κ) = X (ix2 (⟨1000 * t.val + p.val, h⟩ : Fin 10000) κ) := by
  obtain ⟨e0, e1, -⟩ := idx4 t
  show X (((cfg4.win 0).blk t).view.emb (ix2 p κ)) = X _
  refine congrArg X (funext fun a => Fin.ext ?_)
  match a with
  | ⟨0, _⟩ => show win4_0.index t (0 : Fin 2) * 1000 + 1 * p.val = 1000 * t.val + p.val; omega
  | ⟨1, _⟩ => show win4_0.index t (1 : Fin 2) * 256 + 1 * κ.val = κ.val; omega

/-- The weights' block at every point is the whole weight matrix. -/
theorem read4_w (X : S256x128.Idx → EReal) (t : Fin cfg4.N) (κ : Fin 256) (q : Fin 128) :
    ((cfg4.win 1).blk t).view.read (Elt Ideal) X (ix2 κ q) = X (ix2 κ q) := by
  obtain ⟨-, -, e0, e1, -⟩ := idx4 t
  show X (((cfg4.win 1).blk t).view.emb (ix2 κ q)) = X _
  refine congrArg X (funext fun a => Fin.ext ?_)
  match a with
  | ⟨0, _⟩ => show win4_1.index t (0 : Fin 2) * 256 + 1 * κ.val = κ.val; omega
  | ⟨1, _⟩ => show win4_1.index t (1 : Fin 2) * 128 + 1 * q.val = q.val; omega

/-- The bias's block at every point is the whole bias row. -/
theorem read4_b (X : S1x128.Idx → EReal) (t : Fin cfg4.N) (q : Fin 128) :
    ((cfg4.win 2).blk t).view.read (Elt Ideal) X (ix2 (0 : Fin 1) q) = X (ix2 (0 : Fin 1) q) := by
  obtain ⟨-, -, -, -, e0, e1, -⟩ := idx4 t
  show X (((cfg4.win 2).blk t).view.emb (ix2 (0 : Fin 1) q)) = X _
  refine congrArg X (funext fun a => Fin.ext ?_)
  match a with
  | ⟨0, _⟩ => show win4_2.index t (0 : Fin 2) * 1 + 1 * (0 : Fin 1).val = (0 : Fin 1).val; rw [e0]; rfl
  | ⟨1, _⟩ => show win4_2.index t (1 : Fin 2) * 128 + 1 * q.val = q.val; omega

/-- Entry (p, q) of the output's block at point t sits at (1000·t + p, q) of the output. -/
theorem emb4_out (t : Fin cfg4.N) (p : Fin 1000) (q : Fin 128) (h : 1000 * t.val + p.val < 10000) :
    ((cfg4.win 3).blk t).view.emb (ix2 p q) = (ix2 (⟨1000 * t.val + p.val, h⟩ : Fin 10000) q : S10000x128.Idx) := by
  obtain ⟨-, -, -, -, -, -, e0, e1⟩ := idx4 t
  refine funext fun a => Fin.ext ?_
  match a with
  | ⟨0, _⟩ => show win4_3.index t (0 : Fin 2) * 1000 + 1 * p.val = 1000 * t.val + p.val; omega
  | ⟨1, _⟩ => show win4_3.index t (1 : Fin 2) * 128 + 1 * q.val = q.val; omega

/-- What point t writes back is block t of the affine map of the three input arrays as the region finds them. -/
theorem flushed4_eq (c : Dev nD) (t : Fin cfg4.N) :
    (dat4 (F := Ideal) V c).flushed 3 t
      = ((cfg4.win 3).blk t).view.read (Elt Ideal)
          (affine (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S1000x256) hz, View.ld_unit_zero (S := S256x128) hz, View.ld_unit_zero (S := S1x128) hz]
  funext j
  obtain ⟨p, q, rfl⟩ : ∃ (p : Fin 1000) (q : Fin 128), j = ix2 p q := ⟨j 0, j 1, eq_ix2 j⟩
  have ht : t.val < 10 := t.isLt.trans_eq N_4
  have hr : 1000 * t.val + p.val < 10000 := by have := p.isLt; omega
  show k4_pay1 (iblk4 V c 0 t) (iblk4 V c 1 t) (iblk4 V c 2 t) (ix2 p q)
    = affine (V c (Pipeline.arrRef spec4 0)) (V c (Pipeline.arrRef spec4 1)) (V c (Pipeline.arrRef spec4 2))
        (((cfg4.win 3).blk t).view.emb (ix2 p q))
  rw [emb4_out t p q hr, affine_ix2]
  refine (pay4_apply (iblk4 V c 0 t) (iblk4 V c 1 t) (iblk4 V c 2 t) p q).trans ?_
  refine congrArg₂ (· + ·) (Finset.sum_congr rfl fun κ _ => congrArg₂ (· * ·) ?_ ?_) ?_
  · exact read4_x (V c (Pipeline.arrRef spec4 0)) t p κ hr
  · exact read4_w (V c (Pipeline.arrRef spec4 1)) t κ q
  · exact read4_b (V c (Pipeline.arrRef spec4 2)) t q

/-- An index of the output is in point t's block iff each coordinate is in the block's range on its axis. -/
theorem mem_blk4 (t : Fin cfg4.N) (i : S10000x128.Idx) :
    i ∈ ((cfg4.win 3).blk t).view.set ↔ ∀ a : Fin 2, win4_3.index t a * S1000x128.size a ≤ (i a).val
      ∧ (i a).val < win4_3.index t a * S1000x128.size a + S1000x128.size a := by
  show i ∈ ((View.whole main_v145).slice (win4_3.rect t)).set ↔ _
  rw [View.set_slice_whole, Rect.mem_set_unit]
  exact Iff.rfl

/-- Every index of the output is in the block of the point that its row, divided by 1000, names. -/
theorem cover4 (i : S10000x128.Idx) :
    ∃ t : Fin cfg4.N, (cfg4.win 3).flush t = true ∧ i ∈ ((cfg4.win 3).blk t).view.set := by
  have h0 : (i 0).val < 10000 := (i 0).isLt
  have h1 : (i 1).val < 128 := (i 1).isLt
  obtain ⟨t, ht⟩ : ∃ t : Fin cfg4.N, t.val = (i 0).val / 1000 :=
    ⟨⟨(i 0).val / 1000, by rw [show cfg4.N = 10 from N_4]; omega⟩, rfl⟩
  obtain ⟨-, -, -, -, -, -, e0, e1⟩ := idx4 t
  refine ⟨t, flush4_3 t, ?_⟩
  rw [mem_blk4]
  intro a
  match a with
  | ⟨0, _⟩ =>
    show win4_3.index t (0 : Fin 2) * 1000 ≤ (i 0).val ∧ (i 0).val < win4_3.index t (0 : Fin 2) * 1000 + 1000
    omega
  | ⟨1, _⟩ =>
    show win4_3.index t (1 : Fin 2) * 128 ≤ (i 1).val ∧ (i 1).val < win4_3.index t (1 : Fin 2) * 128 + 128
    omega

/-- The output array after region 4: the affine map of the three input arrays as the region finds them. -/
theorem final4 (c : Dev nD) :
    (dat4 (F := Ideal) V c).arrAt 3 cfg4.N
      = affine (V c (Pipeline.arrRef spec4 0)) (V c (Pipeline.arrRef spec4 1)) (V c (Pipeline.arrRef spec4 2)) :=
  (dat4 V c).arrAt_eq_of_cover 3 _ (fun t _ => flushed4_eq V c t) cover4

/-- REGION 4 AT AN ENTRY, in the three input arrays as the region finds them: `affine_ix2` opens the right side to
    ∑_k x[r, k] · W[k, q] + b[0, q]. -/
theorem region4_apply (c : Dev nD) (r : Fin 10000) (q : Fin 128) :
    (dat4 (F := Ideal) V c).arrAt 3 cfg4.N (ix2 r q)
      = affine (V c (Pipeline.arrRef spec4 0)) (V c (Pipeline.arrRef spec4 1)) (V c (Pipeline.arrRef spec4 2)) (ix2 r q) :=
  congrFun (final4 V c) (ix2 r q)

/-- REGION 4 AT AN ENTRY, the three input arrays named: ∑_k x[r, k] · W[k, q] + b[0, q]. -/
theorem region4_apply_of (c : Dev nD) (A : S10000x256.Idx → EReal) (B : S256x128.Idx → EReal) (b : S1x128.Idx → EReal)
    (hA : V c (Pipeline.arrRef spec4 0) = A) (hB : V c (Pipeline.arrRef spec4 1) = B) (hb : V c (Pipeline.arrRef spec4 2) = b)
    (r : Fin 10000) (q : Fin 128) :
    (dat4 (F := Ideal) V c).arrAt 3 cfg4.N (ix2 r q)
      = (∑ k : Fin 256, A (ix2 r k) * B (ix2 k q)) + b (ix2 (0 : Fin 1) q) := by
  subst hA hB hb
  exact (region4_apply V c r q).trans (affine_ix2 _ _ _ r q)

end Region4

end Cert.KernelIdeal.RegionAffine

end
-- ==== Proof.StageEncode.lean ====
/-
  The two encoders: the node tables of the two node types.

  Each encoder kernel tiles the rows of its input into blocks of 1000, multiplies every block by the whole weight
  matrix and adds the bias row; its output array therefore holds, at row r and column q, the inner product of row r of
  the input with column q of the weights, plus the bias at q. The reference computes the same entry as one whole
  matrix product plus the bias broadcast down the rows. So after each encoder region the kernel program's output array
  IS the reference's stage, as whole arrays.
-/
import proofs.«174049_j50079318671420_1_alg».proof.Proof.Gen.KernelIdeal.Frame
import proofs.«174049_j50079318671420_1_alg».proof.Proof.RefRead
import proofs.«174049_j50079318671420_1_alg».proof.Proof.RegionAffine
import proofs.«174049_j50079318671420_1_alg».proof.Proof.KernelKept
import Idealize.ShloMosaic.Lib.ValueLayout
import Idealize.ShloMosaic.Lib.ValueIdx

set_option maxRecDepth 16384

noncomputable section

namespace Cert.Bridge

open scoped BigOperators
open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.ReadP (val_main_v0 val_main_v1 val_main_v2 val_main_v3 val_main_v4 val_main_v5 val_main_v6 val_main_v7
  val_main_v0_apply val_main_v1_apply val_main_v2_apply val_main_v3_apply val_main_v4_apply val_main_v5_apply val_main_v6_apply val_main_v7_apply
  lidx_main_v0 ridx_main_v0 idx_main_v1 idx_main_v2 lidx_main_v4 ridx_main_v4 idx_main_v5 idx_main_v6)

variable (m : (ℓ : Loc nD τ sig) → Buf (Elt Ideal) ℓ) (ρ : Dev nD → PrngReg) (c : Dev nD)

set_option quotPrecheck false in
local notation "𝔸" b => m ((c : Thread nD τ).loc b)

/-- The first encoder's bias row as its region finds it: the bias vector cast to one row. -/
theorem W1_v0 : W1 m ρ c (Proc.devRef .tc main_v0) = shapeCast S1x256 (𝔸 main_arg3) shapeCasts_S256_S1x256 := by
  dsimp only [W1, hostOps0]; after_results <;> rfl

/-- The second encoder's bias row as its region finds it. -/
theorem W3_v2 : W3 m ρ c (Proc.devRef .tc main_v2) = shapeCast S1x256 (𝔸 main_arg5) shapeCasts_S256_S1x256 := by
  dsimp only [W3, hostOps1]; after_results
  rw [Kept.W2_arg5]; rfl

/-- After the first encoder region its output array is the reference's first node table. -/
theorem enc_news : W2 m ρ c (Proc.devRef .tc main_v1)
    = val_main_v3 (F := Ideal) (𝔸 main_arg0) (𝔸 main_arg2) (𝔸 main_arg3) := by
  funext i
  obtain ⟨r, q, rfl⟩ : ∃ (r : Fin 10000) (q : Fin 256), i = ix2 r q := ⟨i 0, i 1, eq_ix2 i⟩
  refine (congrFun (W2_arr m ρ c 3) (ix2 r q)).trans ?_
  refine (Cert.KernelIdeal.RegionAffine.region0_apply_of (V1 m ρ) c (𝔸 main_arg0) (𝔸 main_arg2)
    (shapeCast S1x256 (𝔸 main_arg3) shapeCasts_S256_S1x256) (Kept.W1_arg0 m ρ c) (Kept.W1_arg2 m ρ c) (W1_v0 m ρ c) r q).trans ?_
  rw [val_main_v3_apply, val_main_v0_apply, val_main_v2_apply, val_main_v1_apply, shapeCast_a_1a_apply]
  refine congrArg₂ (· + ·) (Finset.sum_congr rfl fun k _ => congrArg₂ (· * ·) (congrArg _ ?_) (congrArg _ ?_)) (congrArg _ ?_)
  · funext a; match a with | ⟨0, _⟩ => rfl | ⟨1, _⟩ => rfl
  · funext a; match a with | ⟨0, _⟩ => rfl | ⟨1, _⟩ => rfl
  · funext a; match a with | ⟨0, _⟩ => rfl

/-- After the second encoder region its output array is the reference's second node table. -/
theorem enc_int : W4 m ρ c (Proc.devRef .tc main_v3)
    = val_main_v7 (F := Ideal) (𝔸 main_arg1) (𝔸 main_arg4) (𝔸 main_arg5) := by
  funext i
  obtain ⟨r, q, rfl⟩ : ∃ (r : Fin 50000) (q : Fin 256), i = ix2 r q := ⟨i 0, i 1, eq_ix2 i⟩
  refine (congrFun (W4_arr m ρ c 3) (ix2 r q)).trans ?_
  refine (Cert.KernelIdeal.RegionAffine.region1_apply_of (V3 m ρ) c (𝔸 main_arg1) (𝔸 main_arg4)
    (shapeCast S1x256 (𝔸 main_arg5) shapeCasts_S256_S1x256) (Kept.W3_arg1 m ρ c) (Kept.W3_arg4 m ρ c) (W3_v2 m ρ c) r q).trans ?_
  rw [val_main_v7_apply, val_main_v4_apply, val_main_v6_apply, val_main_v5_apply, shapeCast_a_1a_apply]
  refine congrArg₂ (· + ·) (Finset.sum_congr rfl fun k _ => congrArg₂ (· * ·) (congrArg _ ?_) (congrArg _ ?_)) (congrArg _ ?_)
  · funext a; match a with | ⟨0, _⟩ => rfl | ⟨1, _⟩ => rfl
  · funext a; match a with | ⟨0, _⟩ => rfl | ⟨1, _⟩ => rfl
  · funext a; match a with | ⟨0, _⟩ => rfl

/-- The first node table is still in place when the second encoder has run. -/
theorem enc_news_W4 : W4 m ρ c (Proc.devRef .tc main_v1)
    = val_main_v3 (F := Ideal) (𝔸 main_arg0) (𝔸 main_arg2) (𝔸 main_arg3) :=
  (Kept.W4_v1 m ρ c).trans (enc_news m ρ c)

end Cert.Bridge

end
-- ==== Proof.StageGlue1.lean ====
/-
  The host operations between the encoders and the first graph-convolution layer.

  The kernel program and the reference apply the SAME host operations here: the two node tables are joined into one,
  the interaction nodes' edge endpoints are shifted past the news nodes, each relation's in-degree is counted by a
  scatter-add of ones and turned into 1/max(count, 1) where the count is positive and 0 elsewhere, each relation's
  messages are gathered from the joined table at the edge sources, summed at the edge destinations and scaled by that
  inverse degree, and the layer's weight matrices and bias are cut out of their stacks. Since the node tables going in
  are the reference's (the encoders), every value coming out is the reference's stage of the same name, by unfolding
  both sides to the one composition of operations (the typed buffers of the function calls are casts along equations
  of types that hold by computation, and are removed first); only the bias row is spelt differently (a cast to one row
  here, a broadcast to one row there) and is compared entry by entry.
-/
import proofs.«174049_j50079318671420_1_alg».proof.Proof.Gen.KernelIdeal.Frame
import proofs.«174049_j50079318671420_1_alg».proof.Proof.RefRead
import proofs.«174049_j50079318671420_1_alg».proof.Proof.KernelKept
import proofs.«174049_j50079318671420_1_alg».proof.Proof.StageEncode
import Idealize.ShloMosaic.Lib.ValueLayout
import Idealize.ShloMosaic.Lib.ValueIdx

set_option maxRecDepth 16384

noncomputable section

namespace Cert.Bridge

open scoped BigOperators
open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.ReadP (val_main_v3 val_main_v7 val_main_v8 val_main_v68 val_main_v84 val_main_v100 val_main_v50 val_main_v70 val_main_v86 val_main_v102 val_main_v53 val_main_v54 val_main_v54_apply idx_main_v54 val_main_v24 val_main_v36 val_main_v48 val_main_v10 val_main_v12)

variable (m : (ℓ : Loc nD τ sig) → Buf (Elt Ideal) ℓ) (ρ : Dev nD → PrngReg) (c : Dev nD)

set_option quotPrecheck false in
local notation "𝔸" b => m ((c : Thread nD τ).loc b)

local macro "stretch2" : tactic => `(tactic| (dsimp only [W11, W10, W9, W8, W7, W6, W5, hostOps2_6, hostOps2_5, hostOps2_4, hostOps2_3, hostOps2_2, hostOps2_1, hostOps2]; after_results_simp))

set_option maxHeartbeats 8000000 in
/-- The joined node table. -/
theorem glue1_x : W11 m ρ c (Proc.devRef .tc main_v4) = val_main_v8 (F := Ideal) (𝔸 main_arg0) (𝔸 main_arg1) (𝔸 main_arg2) (𝔸 main_arg3) (𝔸 main_arg4) (𝔸 main_arg5) := by
  stretch2
  rw [enc_news_W4, enc_int]
  rfl

set_option maxHeartbeats 8000000 in
/-- Relation 0's mean-aggregated messages. -/
theorem glue1_a0 : W11 m ρ c (Proc.devRef .tc main_v56) = val_main_v68 (F := Ideal) (𝔸 main_arg0) (𝔸 main_arg1) (𝔸 main_arg2) (𝔸 main_arg3) (𝔸 main_arg4) (𝔸 main_arg5) (𝔸 main_arg11) (𝔸 main_arg12) := by
  stretch2
  rw [enc_news_W4, enc_int, Kept.W4_arg11, Kept.W4_arg12]
  simp only [cast_eq]
  rfl

set_option maxHeartbeats 8000000 in
/-- Relation 1's mean-aggregated messages. -/
theorem glue1_a1 : W11 m ρ c (Proc.devRef .tc main_v68) = val_main_v84 (F := Ideal) (𝔸 main_arg0) (𝔸 main_arg1) (𝔸 main_arg2) (𝔸 main_arg3) (𝔸 main_arg4) (𝔸 main_arg5) (𝔸 main_arg13) (𝔸 main_arg14) := by
  stretch2
  rw [enc_news_W4, enc_int, Kept.W4_arg13, Kept.W4_arg14]
  simp only [cast_eq]
  rfl

set_option maxHeartbeats 8000000 in
/-- Relation 2's mean-aggregated messages. -/
theorem glue1_a2 : W11 m ρ c (Proc.devRef .tc main_v80) = val_main_v100 (F := Ideal) (𝔸 main_arg0) (𝔸 main_arg1) (𝔸 main_arg2) (𝔸 main_arg3) (𝔸 main_arg4) (𝔸 main_arg5) (𝔸 main_arg15) (𝔸 main_arg16) := by
  stretch2
  rw [enc_news_W4, enc_int, Kept.W4_arg15, Kept.W4_arg16]
  simp only [cast_eq]
  rfl

set_option maxHeartbeats 8000000 in
/-- The first layer's root weights. -/
theorem glue1_wr : W11 m ρ c (Proc.devRef .tc main_v82) = val_main_v50 (F := Ideal) (𝔸 main_arg7) := by
  stretch2
  rw [Kept.W4_arg7]
  rfl

set_option maxHeartbeats 8000000 in
/-- The first layer's relation weights. -/
theorem glue1_w0 : W11 m ρ c (Proc.devRef .tc main_v84) = val_main_v70 (F := Ideal) (𝔸 main_arg6) := by
  stretch2
  rw [Kept.W4_arg6]
  rfl

set_option maxHeartbeats 8000000 in
theorem glue1_w1 : W11 m ρ c (Proc.devRef .tc main_v86) = val_main_v86 (F := Ideal) (𝔸 main_arg6) := by
  stretch2
  rw [Kept.W4_arg6]
  rfl

set_option maxHeartbeats 8000000 in
theorem glue1_w2 : W11 m ρ c (Proc.devRef .tc main_v88) = val_main_v102 (F := Ideal) (𝔸 main_arg6) := by
  stretch2
  rw [Kept.W4_arg6]
  rfl

set_option maxHeartbeats 8000000 in
/-- The first layer's bias row: cast to one row here, broadcast to one row in the reference; the same entries. -/
theorem glue1_b : W11 m ρ c (Proc.devRef .tc main_v91) = val_main_v54 (F := Ideal) (𝔸 main_arg8) := by
  stretch2
  rw [Kept.W4_arg8]
  funext i
  obtain ⟨z, q, rfl⟩ : ∃ (z : Fin 1) (q : Fin 256), i = ix2 z q := ⟨i 0, i 1, eq_ix2 i⟩
  obtain rfl : z = 0 := Subsingleton.elim _ _
  show shapeCast S1x256 (shapeCast S256 (extractStridedSlice S1x256 ![0, 0] (𝔸 main_arg8) slices_S2x256_S1x256_0_0) shapeCasts_S1x256_S256)
    shapeCasts_S256_S1x256 (ix2 (0 : Fin 1) q) = _
  rw [shapeCast_a_1a_apply, val_main_v54_apply]
  exact congrArg (val_main_v53 (F := Ideal) (𝔸 main_arg8)) (funext fun a => match a with | ⟨0, _⟩ => rfl)

end Cert.Bridge

end
-- ==== Proof.StageGlue1Deg.lean ====
/-
  The inverse in-degrees and the shifted edge endpoints computed before the first layer, which the host operations
  before the second layer read again: each is the reference's stage of the same name, the two programs applying the
  same operations to the same arguments.
-/
import proofs.«174049_j50079318671420_1_alg».proof.Proof.Gen.KernelIdeal.Frame
import proofs.«174049_j50079318671420_1_alg».proof.Proof.RefRead
import proofs.«174049_j50079318671420_1_alg».proof.Proof.KernelKept
import Idealize.ShloMosaic.Lib.ValueLayout
import Idealize.ShloMosaic.Lib.ValueIdx

set_option maxRecDepth 16384

noncomputable section

namespace Cert.Bridge

open scoped BigOperators
open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.ReadP (val_main_v3 val_main_v7 val_main_v8 val_main_v68 val_main_v84 val_main_v100 val_main_v50 val_main_v70 val_main_v86 val_main_v102 val_main_v53 val_main_v54 val_main_v54_apply idx_main_v54 val_main_v24 val_main_v36 val_main_v48 val_main_v10 val_main_v12)

variable (m : (ℓ : Loc nD τ sig) → Buf (Elt Ideal) ℓ) (ρ : Dev nD → PrngReg) (c : Dev nD)

set_option quotPrecheck false in
local notation "𝔸" b => m ((c : Thread nD τ).loc b)

local macro "stretch2" : tactic => `(tactic| (dsimp only [W11, W10, W9, W8, W7, W6, W5, hostOps2_6, hostOps2_5, hostOps2_4, hostOps2_3, hostOps2_2, hostOps2_1, hostOps2]; after_results_simp))

set_option maxHeartbeats 8000000 in
/-- Relation 0's inverse in-degree column: 1 / max(count, 1) where the count of edges into the node is positive, 0 elsewhere. -/
theorem glue1_d0 : W11 m ρ c (Proc.devRef .tc main_v20) = val_main_v24 (F := Ideal) (𝔸 main_arg12) := by
  stretch2
  rw [Kept.W4_arg12]
  simp only [cast_eq]
  rfl

set_option maxHeartbeats 8000000 in
/-- Relation 1's. -/
theorem glue1_d1 : W11 m ρ c (Proc.devRef .tc main_v32) = val_main_v36 (F := Ideal) (𝔸 main_arg14) := by
  stretch2
  rw [Kept.W4_arg14]
  simp only [cast_eq]
  rfl

set_option maxHeartbeats 8000000 in
/-- Relation 2's. -/
theorem glue1_d2 : W11 m ρ c (Proc.devRef .tc main_v44) = val_main_v48 (F := Ideal) (𝔸 main_arg16) := by
  stretch2
  rw [Kept.W4_arg16]
  simp only [cast_eq]
  rfl

set_option maxHeartbeats 8000000 in
/-- Relation 2's sources, shifted past the news nodes. -/
theorem glue1_s2 : W11 m ρ c (Proc.devRef .tc main_v6) = val_main_v10 (F := Ideal) (𝔸 main_arg15) := by
  stretch2
  rw [Kept.W4_arg15]
  rfl

set_option maxHeartbeats 8000000 in
/-- Relation 1's destinations, shifted past the news nodes. -/
theorem glue1_t1 : W11 m ρ c (Proc.devRef .tc main_v8) = val_main_v12 (F := Ideal) (𝔸 main_arg14) := by
  stretch2
  rw [Kept.W4_arg14]
  rfl

end Cert.Bridge

end
-- ==== Proof.RegionLayerPayload.lean ====
/-
  The stored value of the two relational graph-convolution layer kernels, read at an entry.

  One grid point of such a kernel holds a block of 2000 rows of the node features `x` and of the three aggregated
  neighbour features `a0, a1, a2`, the four 256 × 256 weight matrices and the one-row bias, and stores

      max (x·W_root + a0·W0 + a1·W1 + a2·W2 + bias, 0)

  (the sums associated to the left, the bias laid along every row). At the ideal values the roundings on the way into the
  products are the identity and a product accumulated into the zero splat is the exact inner product, so the entry
  `(p, q)` of the stored block is the maximum with zero of four inner products of row `p` with column `q`, plus the
  bias at `q`.
-/
import proofs.«174049_j50079318671420_1_alg».proof.Proof.Gen.KernelIdeal.Skeleton
import proofs.«174049_j50079318671420_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionLayer

open Idealize.ShloMosaic Idealize.ShloMosaic.ValueIdx Cert.KernelIdeal Cert.KernelIdeal.Gen

/-- The value a layer kernel stores at entry `(p, q)` of its block, as a function of the blocks it holds. -/
def layerEntry {m : Nat} (x a0 a1 a2 : (⟨2, ![m, 256]⟩ : Shape).Idx → EReal)
    (wr w0 w1 w2 : (⟨2, ![256, 256]⟩ : Shape).Idx → EReal) (b : (⟨2, ![1, 256]⟩ : Shape).Idx → EReal)
    (p : Fin m) (q : Fin 256) : EReal :=
  max (((((∑ k : Fin 256, x (ix2 p k) * wr (ix2 k q)) + (∑ k : Fin 256, a0 (ix2 p k) * w0 (ix2 k q)))
      + (∑ k : Fin 256, a1 (ix2 p k) * w1 (ix2 k q))) + (∑ k : Fin 256, a2 (ix2 p k) * w2 (ix2 k q)))
      + b (ix2 (0 : Fin 1) q)) 0

/-- The printed dimension numbers of the layer's products are the plain ones: rows by columns, one contracted axis. -/
theorem dims_plain : dot_S2000x256_S256x256_S2000x256_1_0_0_1_n_n = DotDims.plain 2000 256 256 := rfl

/-- One product of the layer at an entry: the operands pass through an identity cast and a rounding that is the identity
    at the ideal values, and the product into the zero splat is the inner product. -/
theorem product_apply (x : Vec Ideal S2000x256 .f32) (w : Vec Ideal S256x256 .f32) (p : Fin 2000) (q : Fin 256) :
    matmul dot_S2000x256_S256x256_S2000x256_1_0_0_1_n_n none
        (truncf .bf16 (shapeCast S2000x256 x shapeCasts_S2000x256_S2000x256) bitsLt_bf16_f32)
        (truncf .bf16 (shapeCast S256x256 w shapeCasts_S256x256_S256x256) bitsLt_bf16_f32)
        (constant (F := Ideal) S2000x256 .f32 0x00000000#32) (ix2 p q)
      = ∑ k : Fin 256, x (ix2 p k) * w (ix2 k q) := by
  rw [shapeCast_self, shapeCast_self, dims_plain]
  exact LibMatmulPlain.matmul_plain_zero_apply none _ _ p q

/-- The bias, cast to itself and laid along every row, at an entry. -/
theorem bias_apply (b : Vec Ideal S1x256 .f32) (p : Fin 2000) (q : Fin 256) :
    broadcastTo S2000x256 (shapeCast S1x256 b shapeCasts_S1x256_S1x256) broadcasts_S1x256_S2000x256 (ix2 p q)
      = b (ix2 (0 : Fin 1) q) := by
  rw [shapeCast_self, broadcastTo_1b_ab_apply]

/-- The first layer kernel's stored value at an entry. -/
theorem pay2_apply (x a0 a1 a2 : Vec Ideal S2000x256 .f32) (wr w0 w1 w2 : Vec Ideal S256x256 .f32)
    (b : Vec Ideal S1x256 .f32) (p : Fin 2000) (q : Fin 256) :
    k2_pay1 (k2_pay2 x a0 a1 a2 wr w0 w1 w2 b) (k2_pay3 (F := Ideal)) (ix2 p q)
      = layerEntry x a0 a1 a2 wr w0 w1 w2 b p q := by
  unfold k2_pay1 k2_pay2 k2_pay3 layerEntry
  dsimp only
  rw [maximumf_apply, addf_apply, addf_apply, addf_apply, addf_apply, product_apply, product_apply, product_apply,
    product_apply, bias_apply, broadcast_apply]
  exact congrArg (max _) Ideal.ofBits_zero_f32

/-- The second layer kernel's stored value at an entry: the same text. -/
theorem pay3_apply (x a0 a1 a2 : Vec Ideal S2000x256 .f32) (wr w0 w1 w2 : Vec Ideal S256x256 .f32)
    (b : Vec Ideal S1x256 .f32) (p : Fin 2000) (q : Fin 256) :
    k3_pay1 (k3_pay2 x a0 a1 a2 wr w0 w1 w2 b) (k3_pay3 (F := Ideal)) (ix2 p q)
      = layerEntry x a0 a1 a2 wr w0 w1 w2 b p q := by
  unfold k3_pay1 k3_pay2 k3_pay3 layerEntry
  dsimp only
  rw [maximumf_apply, addf_apply, addf_apply, addf_apply, addf_apply, product_apply, product_apply, product_apply,
    product_apply, bias_apply, broadcast_apply]
  exact congrArg (max _) Ideal.ofBits_zero_f32

end Cert.KernelIdeal.RegionLayer

end
-- ==== Proof.RegionLayer.lean ====
/-
  The two relational graph-convolution layer kernels (regions 2 and 3 of the program), from blocks to arrays.

  Each runs over a grid of 30 points. Point `t` holds rows `2000 t … 2000 t + 1999` of the node features and of the
  three aggregated neighbour features (arrays of 60000 × 256), the four whole 256 × 256 weight matrices and the whole
  one-row bias, and writes back rows `2000 t … 2000 t + 1999` of the output. The stored block is, entry by entry, the
  layer formula of the held blocks; row `p` of a held block is row `2000 t + p` of its array, so what point `t` writes
  back is block `t` of ONE function of the arrays the region finds, and since row `r` lies in the block of point
  `r / 2000` the blocks cover the output: after the run the output array is that function.
-/
import proofs.«174049_j50079318671420_1_alg».proof.Proof.Gen.KernelIdeal.Frame
import proofs.«174049_j50079318671420_1_alg».proof.Proof.RegionLayerPayload
import Idealize.ShloMosaic.Lib.Pipeline.Value
import Idealize.ShloMosaic.Lib.ValueIdx

set_option maxRecDepth 16384

noncomputable section

open scoped BigOperators

namespace Cert.KernelIdeal.RegionLayer

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer of whole arrays, entry by entry. -/
def layerArr (x a0 a1 a2 : S60000x256.Idx → EReal) (wr w0 w1 w2 : S256x256.Idx → EReal) (b : S1x256.Idx → EReal) :
    S60000x256.Idx → EReal :=
  fun i => layerEntry x a0 a1 a2 wr w0 w1 w2 b (i 0) (i 1)

/-- The layer's entry depends on the row of the features, the column of the weights and the bias at that column only. -/
theorem layerEntry_congr {m n : Nat} (x a0 a1 a2 : (⟨2, ![m, 256]⟩ : Shape).Idx → EReal)
    (wr w0 w1 w2 : (⟨2, ![256, 256]⟩ : Shape).Idx → EReal) (b : (⟨2, ![1, 256]⟩ : Shape).Idx → EReal)
    (x' a0' a1' a2' : (⟨2, ![n, 256]⟩ : Shape).Idx → EReal)
    (wr' w0' w1' w2' : (⟨2, ![256, 256]⟩ : Shape).Idx → EReal) (b' : (⟨2, ![1, 256]⟩ : Shape).Idx → EReal)
    (p : Fin m) (r : Fin n) (q : Fin 256)
    (hx : ∀ k, x (ix2 p k) = x' (ix2 r k)) (h0 : ∀ k, a0 (ix2 p k) = a0' (ix2 r k))
    (h1 : ∀ k, a1 (ix2 p k) = a1' (ix2 r k)) (h2 : ∀ k, a2 (ix2 p k) = a2' (ix2 r k))
    (hwr : ∀ k, wr (ix2 k q) = wr' (ix2 k q)) (hw0 : ∀ k, w0 (ix2 k q) = w0' (ix2 k q))
    (hw1 : ∀ k, w1 (ix2 k q) = w1' (ix2 k q)) (hw2 : ∀ k, w2 (ix2 k q) = w2' (ix2 k q))
    (hb : b (ix2 (0 : Fin 1) q) = b' (ix2 (0 : Fin 1) q)) :
    layerEntry x a0 a1 a2 wr w0 w1 w2 b p q = layerEntry x' a0' a1' a2' wr' w0' w1' w2' b' r q := by
  unfold layerEntry
  simp only [hx, h0, h1, h2, hwr, hw0, hw1, hw2, hb]

/-! ## The first layer kernel (region 2) -/

/-- The printed index maps over the grid: the four row windows and the output sit at block `(t, 0)`, the weights and the
    bias at block `(0, 0)`. -/
theorem index2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-- Window 0's block at point `t` is rows `2000 t … 2000 t + 1999` of its array. -/
theorem rows2_0 (c : Dev nD) (t : Fin cfg2.N) (p : Fin 2000) (k : Fin 256) (r : Fin 60000)
    (hr : r.val = t.val * 2000 + p.val) :
    (iblk2 V c 0 t : S2000x256.Idx → EReal) (ix2 p k)
      = (V c (Pipeline.arrRef spec2 0) : S60000x256.Idx → EReal) (ix2 r k) := by
  obtain ⟨e00, e01, e10, e11, e20, e21, e30, e31, e40, e41, e50, e51, e60, e61, e70, e71, e80, e81, e90, e91⟩ := index2 t
  unfold iblk2
  rw [View.read_apply]
  show V c (Pipeline.arrRef spec2 0) (((cfg2.win 0).blk t).view.emb (ix2 p k)) = _
  refine congrArg _ (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- Window 1's block at point `t` is rows `2000 t … 2000 t + 1999` of its array. -/
theorem rows2_1 (c : Dev nD) (t : Fin cfg2.N) (p : Fin 2000) (k : Fin 256) (r : Fin 60000)
    (hr : r.val = t.val * 2000 + p.val) :
    (iblk2 V c 1 t : S2000x256.Idx → EReal) (ix2 p k)
      = (V c (Pipeline.arrRef spec2 1) : S60000x256.Idx → EReal) (ix2 r k) := by
  obtain ⟨e00, e01, e10, e11, e20, e21, e30, e31, e40, e41, e50, e51, e60, e61, e70, e71, e80, e81, e90, e91⟩ := index2 t
  unfold iblk2
  rw [View.read_apply]
  show V c (Pipeline.arrRef spec2 1) (((cfg2.win 1).blk t).view.emb (ix2 p k)) = _
  refine congrArg _ (funext fun a => Fin.ext ?_)
  match a with
  | ⟨0, _⟩ => show win2_1.index t (0 : Fin 2) * 2000 + 1 * p.val = r.val; omega
  | ⟨1, _⟩ => show win2_1.index t (1 : Fin 2) * 256 + 1 * k.val = k.val; omega

/-- Window 2's block at point `t` is rows `2000 t … 2000 t + 1999` of its array. -/
theorem rows2_2 (c : Dev nD) (t : Fin cfg2.N) (p : Fin 2000) (k : Fin 256) (r : Fin 60000)
    (hr : r.val = t.val * 2000 + p.val) :
    (iblk2 V c 2 t : S2000x256.Idx → EReal) (ix2 p k)
      = (V c (Pipeline.arrRef spec2 2) : S60000x256.Idx → EReal) (ix2 r k) := by
  obtain ⟨e00, e01, e10, e11, e20, e21, e30, e31, e40, e41, e50, e51, e60, e61, e70, e71, e80, e81, e90, e91⟩ := index2 t
  unfold iblk2
  rw [View.read_apply]
  show V c (Pipeline.arrRef spec2 2) (((cfg2.win 2).blk t).view.emb (ix2 p k)) = _
  refine congrArg _ (funext fun a => Fin.ext ?_)
  match a with
  | ⟨0, _⟩ => show win2_2.index t (0 : Fin 2) * 2000 + 1 * p.val = r.val; omega
  | ⟨1, _⟩ => show win2_2.index t (1 : Fin 2) * 256 + 1 * k.val = k.val; omega

/-- Window 3's block at point `t` is rows `2000 t … 2000 t + 1999` of its array. -/
theorem rows2_3 (c : Dev nD) (t : Fin cfg2.N) (p : Fin 2000) (k : Fin 256) (r : Fin 60000)
    (hr : r.val = t.val * 2000 + p.val) :
    (iblk2 V c 3 t : S2000x256.Idx → EReal) (ix2 p k)
      = (V c (Pipeline.arrRef spec2 3) : S60000x256.Idx → EReal) (ix2 r k) := by
  obtain ⟨e00, e01, e10, e11, e20, e21, e30, e31, e40, e41, e50, e51, e60, e61, e70, e71, e80, e81, e90, e91⟩ := index2 t
  unfold iblk2
  rw [View.read_apply]
  show V c (Pipeline.arrRef spec2 3) (((cfg2.win 3).blk t).view.emb (ix2 p k)) = _
  refine congrArg _ (funext fun a => Fin.ext ?_)
  match a with
  | ⟨0, _⟩ => show win2_3.index t (0 : Fin 2) * 2000 + 1 * p.val = r.val; omega
  | ⟨1, _⟩ => show win2_3.index t (1 : Fin 2) * 256 + 1 * k.val = k.val; omega

/-- Window 4's block at every point is its whole array. -/
theorem whole2_4 (c : Dev nD) (t : Fin cfg2.N) (k : Fin 256) (q : Fin 256) :
    (iblk2 V c 4 t : S256x256.Idx → EReal) (ix2 k q)
      = (V c (Pipeline.arrRef spec2 4) : S256x256.Idx → EReal) (ix2 k q) := by
  obtain ⟨e00, e01, e10, e11, e20, e21, e30, e31, e40, e41, e50, e51, e60, e61, e70, e71, e80, e81, e90, e91⟩ := index2 t
  unfold iblk2
  rw [View.read_apply]
  show V c (Pipeline.arrRef spec2 4) (((cfg2.win 4).blk t).view.emb (ix2 k q)) = _
  refine congrArg _ (funext fun a => Fin.ext ?_)
  match a with
  | ⟨0, _⟩ => show win2_4.index t (0 : Fin 2) * 256 + 1 * k.val = k.val; omega
  | ⟨1, _⟩ => show win2_4.index t (1 : Fin 2) * 256 + 1 * q.val = q.val; omega

/-- Window 5's block at every point is its whole array. -/
theorem whole2_5 (c : Dev nD) (t : Fin cfg2.N) (k : Fin 256) (q : Fin 256) :
    (iblk2 V c 5 t : S256x256.Idx → EReal) (ix2 k q)
      = (V c (Pipeline.arrRef spec2 5) : S256x256.Idx → EReal) (ix2 k q) := by
  obtain ⟨e00, e01, e10, e11, e20, e21, e30, e31, e40, e41, e50, e51, e60, e61, e70, e71, e80, e81, e90, e91⟩ := index2 t
  unfold iblk2
  rw [View.read_apply]
  show V c (Pipeline.arrRef spec2 5) (((cfg2.win 5).blk t).view.emb (ix2 k q)) = _
  refine congrArg _ (funext fun a => Fin.ext ?_)
  match a with
  | ⟨0, _⟩ => show win2_5.index t (0 : Fin 2) * 256 + 1 * k.val = k.val; omega
  | ⟨1, _⟩ => show win2_5.index t (1 : Fin 2) * 256 + 1 * q.val = q.val; omega

/-- Window 6's block at every point is its whole array. -/
theorem whole2_6 (c : Dev nD) (t : Fin cfg2.N) (k : Fin 256) (q : Fin 256) :
    (iblk2 V c 6 t : S256x256.Idx → EReal) (ix2 k q)
      = (V c (Pipeline.arrRef spec2 6) : S256x256.Idx → EReal) (ix2 k q) := by
  obtain ⟨e00, e01, e10, e11, e20, e21, e30, e31, e40, e41, e50, e51, e60, e61, e70, e71, e80, e81, e90, e91⟩ := index2 t
  unfold iblk2
  rw [View.read_apply]
  show V c (Pipeline.arrRef spec2 6) (((cfg2.win 6).blk t).view.emb (ix2 k q)) = _
  refine congrArg _ (funext fun a => Fin.ext ?_)
  match a with
  | ⟨0, _⟩ => show win2_6.index t (0 : Fin 2) * 256 + 1 * k.val = k.val; omega
  | ⟨1, _⟩ => show win2_6.index t (1 : Fin 2) * 256 + 1 * q.val = q.val; omega

/-- Window 7's block at every point is its whole array. -/
theorem whole2_7 (c : Dev nD) (t : Fin cfg2.N) (k : Fin 256) (q : Fin 256) :
    (iblk2 V c 7 t : S256x256.Idx → EReal) (ix2 k q)
      = (V c (Pipeline.arrRef spec2 7) : S256x256.Idx → EReal) (ix2 k q) := by
  obtain ⟨e00, e01, e10, e11, e20, e21, e30, e31, e40, e41, e50, e51, e60, e61, e70, e71, e80, e81, e90, e91⟩ := index2 t
  unfold iblk2
  rw [View.read_apply]
  show V c (Pipeline.arrRef spec2 7) (((cfg2.win 7).blk t).view.emb (ix2 k q)) = _
  refine congrArg _ (funext fun a => Fin.ext ?_)
  match a with
  | ⟨0, _⟩ => show win2_7.index t (0 : Fin 2) * 256 + 1 * k.val = k.val; omega
  | ⟨1, _⟩ => show win2_7.index t (1 : Fin 2) * 256 + 1 * q.val = q.val; omega

/-- The bias window's block at every point is its whole one-row array. -/
theorem whole2_8 (c : Dev nD) (t : Fin cfg2.N) (q : Fin 256) :
    (iblk2 V c 8 t : S1x256.Idx → EReal) (ix2 (0 : Fin 1) q)
      = (V c (Pipeline.arrRef spec2 8) : S1x256.Idx → EReal) (ix2 (0 : Fin 1) q) := by
  obtain ⟨e00, e01, e10, e11, e20, e21, e30, e31, e40, e41, e50, e51, e60, e61, e70, e71, e80, e81, e90, e91⟩ := index2 t
  unfold iblk2
  rw [View.read_apply]
  show V c (Pipeline.arrRef spec2 8) (((cfg2.win 8).blk t).view.emb (ix2 (0 : Fin 1) q)) = _
  refine congrArg _ (funext fun a => Fin.ext ?_)
  match a with
  | ⟨0, _⟩ => show win2_8.index t (0 : Fin 2) * 1 + 1 * 0 = 0; omega
  | ⟨1, _⟩ => show win2_8.index t (1 : Fin 2) * 256 + 1 * q.val = q.val; omega

/-- The array the region leaves in its output window: the layer of the arrays the region finds, entry by entry. -/
def out2 (c : Dev nD) : S60000x256.Idx → EReal :=
  layerArr (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7)) (V c (Pipeline.arrRef spec2 8))

/-- What point `t` writes back is block `t` of that array. -/
theorem flushed2_eq (c : Dev nD) (t : Fin cfg2.N) :
    (dat2 (F := Ideal) V c).flushed 9 t = ((cfg2.win 9).blk t).view.read (Elt Ideal) (out2 V c) := by
  show (cfg2.win 9).cut (grid2.coords t) ((dat2 V c).after 9 t) = _
  rw [after2_9]
  unfold out2_9
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  have hN : cfg2.N = 30 := N_2
  have hr : t.val * 2000 + p.val < 60000 := by have := t.isLt; have := p.isLt; omega
  obtain ⟨e00, e01, e10, e11, e20, e21, e30, e31, e40, e41, e50, e51, e60, e61, e70, e71, e80, e81, e90, e91⟩ := index2 t
  have hemb : ((cfg2.win 9).blk t).view.emb (ix2 p q) = ix2 (⟨t.val * 2000 + p.val, hr⟩ : Fin 60000) q := by
    funext a; apply Fin.ext
    match a with
    | ⟨0, _⟩ => show win2_9.index t (0 : Fin 2) * 2000 + 1 * p.val = t.val * 2000 + p.val; omega
    | ⟨1, _⟩ => show win2_9.index t (1 : Fin 2) * 256 + 1 * q.val = q.val; omega
  rw [View.read_apply, hemb]
  show k2_pay1 (k2_pay2 (iblk2 V c 0 t) (iblk2 V c 1 t) (iblk2 V c 2 t) (iblk2 V c 3 t) (iblk2 V c 4 t)
      (iblk2 V c 5 t) (iblk2 V c 6 t) (iblk2 V c 7 t) (iblk2 V c 8 t)) (k2_pay3 (F := Ideal)) (ix2 p q) = _
  refine (pay2_apply (iblk2 V c 0 t) (iblk2 V c 1 t) (iblk2 V c 2 t) (iblk2 V c 3 t) (iblk2 V c 4 t)
      (iblk2 V c 5 t) (iblk2 V c 6 t) (iblk2 V c 7 t) (iblk2 V c 8 t) p q).trans ?_
  exact layerEntry_congr (iblk2 V c 0 t) (iblk2 V c 1 t) (iblk2 V c 2 t) (iblk2 V c 3 t) (iblk2 V c 4 t)
      (iblk2 V c 5 t) (iblk2 V c 6 t) (iblk2 V c 7 t) (iblk2 V c 8 t)
      (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5))
      (V c (Pipeline.arrRef spec2 6)) (V c (Pipeline.arrRef spec2 7)) (V c (Pipeline.arrRef spec2 8))
      p ⟨t.val * 2000 + p.val, hr⟩ q
      (fun k => rows2_0 V c t p k _ rfl) (fun k => rows2_1 V c t p k _ rfl) (fun k => rows2_2 V c t p k _ rfl)
      (fun k => rows2_3 V c t p k _ rfl) (fun k => whole2_4 V c t k q) (fun k => whole2_5 V c t k q)
      (fun k => whole2_6 V c t k q) (fun k => whole2_7 V c t k q) (whole2_8 V c t q)

/-- An entry of the output array is in point `t`'s block iff each coordinate is in the block's range on its axis. -/
theorem mem_blk2 (t : Fin cfg2.N) (i : S60000x256.Idx) :
    i ∈ ((cfg2.win 9).blk t).view.set ↔ ∀ a : Fin 2, win2_9.index t a * S2000x256.size a ≤ (i a).val
      ∧ (i a).val < win2_9.index t a * S2000x256.size a + S2000x256.size a := by
  show i ∈ ((View.whole main_v92).slice (win2_9.rect t)).set ↔ _
  rw [View.set_slice_whole, Rect.mem_set_unit]
  exact Iff.rfl

/-- Row `r` of the output array is written back by point `r / 2000`. -/
theorem cover2 (i : S60000x256.Idx) :
    ∃ t : Fin cfg2.N, (cfg2.win 9).flush t = true ∧ i ∈ ((cfg2.win 9).blk t).view.set := by
  have h0 : (i 0).val < 60000 := (i 0).isLt
  have h1 : (i 1).val < 256 := (i 1).isLt
  have hN : cfg2.N = 30 := N_2
  have ht : (i 0).val / 2000 < cfg2.N := by rw [hN]; omega
  refine ⟨⟨(i 0).val / 2000, ht⟩, flush2_9 _, ?_⟩
  rw [mem_blk2]
  obtain ⟨-, -, -, -, -, -, -, -, -, -, -, -, -, -, -, -, -, -, e90, e91⟩ := index2 ⟨(i 0).val / 2000, ht⟩
  intro a
  match a with
  | ⟨0, _⟩ =>
    show win2_9.index ⟨(i 0).val / 2000, ht⟩ (0 : Fin 2) * 2000 ≤ (i 0).val
      ∧ (i 0).val < win2_9.index ⟨(i 0).val / 2000, ht⟩ (0 : Fin 2) * 2000 + 2000
    rw [e90]; show (i 0).val / 2000 * 2000 ≤ (i 0).val ∧ (i 0).val < (i 0).val / 2000 * 2000 + 2000; omega
  | ⟨1, _⟩ =>
    show win2_9.index ⟨(i 0).val / 2000, ht⟩ (1 : Fin 2) * 256 ≤ (i 1).val
      ∧ (i 1).val < win2_9.index ⟨(i 0).val / 2000, ht⟩ (1 : Fin 2) * 256 + 256
    rw [e91]; omega

/-- The output array after the region's run is the layer of the arrays the region finds. -/
theorem final2 (c : Dev nD) : (dat2 (F := Ideal) V c).arrAt 9 cfg2.N = out2 V c :=
  (dat2 (F := Ideal) V c).arrAt_eq_of_cover 9 (out2 V c) (fun t _ => flushed2_eq V c t) cover2

/-- Entry `(r, q)` of the output array after the region's run, the nine arrays the region finds named. -/
theorem region2_apply_of (c : Dev nD) (X A0 A1 A2 : S60000x256.Idx → EReal) (Wr W0 W1 W2 : S256x256.Idx → EReal)
    (b : S1x256.Idx → EReal)
    (hX : V c (Pipeline.arrRef spec2 0) = X) (hA0 : V c (Pipeline.arrRef spec2 1) = A0)
    (hA1 : V c (Pipeline.arrRef spec2 2) = A1) (hA2 : V c (Pipeline.arrRef spec2 3) = A2)
    (hWr : V c (Pipeline.arrRef spec2 4) = Wr) (hW0 : V c (Pipeline.arrRef spec2 5) = W0)
    (hW1 : V c (Pipeline.arrRef spec2 6) = W1) (hW2 : V c (Pipeline.arrRef spec2 7) = W2)
    (hb : V c (Pipeline.arrRef spec2 8) = b) (r : Fin 60000) (q : Fin 256) :
    (dat2 (F := Ideal) V c).arrAt 9 cfg2.N (ix2 r q)
      = max (((((∑ k : Fin 256, X (ix2 r k) * Wr (ix2 k q)) + (∑ k : Fin 256, A0 (ix2 r k) * W0 (ix2 k q)))
            + (∑ k : Fin 256, A1 (ix2 r k) * W1 (ix2 k q))) + (∑ k : Fin 256, A2 (ix2 r k) * W2 (ix2 k q)))
          + b (ix2 (0 : Fin 1) q)) 0 := by
  subst hX hA0 hA1 hA2 hWr hW0 hW1 hW2 hb
  rw [final2 V c]
  rfl

/-! ## The second layer kernel (region 3) -/

/-- The printed index maps over the grid: the four row windows and the output sit at block `(t, 0)`, the weights and the
    bias at block `(0, 0)`. -/
theorem index3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0 :=
  (by decide +kernel : ∀ t : Fin grid3.N, _)

/-- Window 0's block at point `t` is rows `2000 t … 2000 t + 1999` of its array. -/
theorem rows3_0 (c : Dev nD) (t : Fin cfg3.N) (p : Fin 2000) (k : Fin 256) (r : Fin 60000)
    (hr : r.val = t.val * 2000 + p.val) :
    (iblk3 V c 0 t : S2000x256.Idx → EReal) (ix2 p k)
      = (V c (Pipeline.arrRef spec3 0) : S60000x256.Idx → EReal) (ix2 r k) := by
  obtain ⟨e00, e01, e10, e11, e20, e21, e30, e31, e40, e41, e50, e51, e60, e61, e70, e71, e80, e81, e90, e91⟩ := index3 t
  unfold iblk3
  rw [View.read_apply]
  show V c (Pipeline.arrRef spec3 0) (((cfg3.win 0).blk t).view.emb (ix2 p k)) = _
  refine congrArg _ (funext fun a => Fin.ext ?_)
  match a with
  | ⟨0, _⟩ => show win3_0.index t (0 : Fin 2) * 2000 + 1 * p.val = r.val; omega
  | ⟨1, _⟩ => show win3_0.index t (1 : Fin 2) * 256 + 1 * k.val = k.val; omega

/-- Window 1's block at point `t` is rows `2000 t … 2000 t + 1999` of its array. -/
theorem rows3_1 (c : Dev nD) (t : Fin cfg3.N) (p : Fin 2000) (k : Fin 256) (r : Fin 60000)
    (hr : r.val = t.val * 2000 + p.val) :
    (iblk3 V c 1 t : S2000x256.Idx → EReal) (ix2 p k)
      = (V c (Pipeline.arrRef spec3 1) : S60000x256.Idx → EReal) (ix2 r k) := by
  obtain ⟨e00, e01, e10, e11, e20, e21, e30, e31, e40, e41, e50, e51, e60, e61, e70, e71, e80, e81, e90, e91⟩ := index3 t
  unfold iblk3
  rw [View.read_apply]
  show V c (Pipeline.arrRef spec3 1) (((cfg3.win 1).blk t).view.emb (ix2 p k)) = _
  refine congrArg _ (funext fun a => Fin.ext ?_)
  match a with
  | ⟨0, _⟩ => show win3_1.index t (0 : Fin 2) * 2000 + 1 * p.val = r.val; omega
  | ⟨1, _⟩ => show win3_1.index t (1 : Fin 2) * 256 + 1 * k.val = k.val; omega

/-- Window 2's block at point `t` is rows `2000 t … 2000 t + 1999` of its array. -/
theorem rows3_2 (c : Dev nD) (t : Fin cfg3.N) (p : Fin 2000) (k : Fin 256) (r : Fin 60000)
    (hr : r.val = t.val * 2000 + p.val) :
    (iblk3 V c 2 t : S2000x256.Idx → EReal) (ix2 p k)
      = (V c (Pipeline.arrRef spec3 2) : S60000x256.Idx → EReal) (ix2 r k) := by
  obtain ⟨e00, e01, e10, e11, e20, e21, e30, e31, e40, e41, e50, e51, e60, e61, e70, e71, e80, e81, e90, e91⟩ := index3 t
  unfold iblk3
  rw [View.read_apply]
  show V c (Pipeline.arrRef spec3 2) (((cfg3.win 2).blk t).view.emb (ix2 p k)) = _
  refine congrArg _ (funext fun a => Fin.ext ?_)
  match a with
  | ⟨0, _⟩ => show win3_2.index t (0 : Fin 2) * 2000 + 1 * p.val = r.val; omega
  | ⟨1, _⟩ => show win3_2.index t (1 : Fin 2) * 256 + 1 * k.val = k.val; omega

/-- Window 3's block at point `t` is rows `2000 t … 2000 t + 1999` of its array. -/
theorem rows3_3 (c : Dev nD) (t : Fin cfg3.N) (p : Fin 2000) (k : Fin 256) (r : Fin 60000)
    (hr : r.val = t.val * 2000 + p.val) :
    (iblk3 V c 3 t : S2000x256.Idx → EReal) (ix2 p k)
      = (V c (Pipeline.arrRef spec3 3) : S60000x256.Idx → EReal) (ix2 r k) := by
  obtain ⟨e00, e01, e10, e11, e20, e21, e30, e31, e40, e41, e50, e51, e60, e61, e70, e71, e80, e81, e90, e91⟩ := index3 t
  unfold iblk3
  rw [View.read_apply]
  show V c (Pipeline.arrRef spec3 3) (((cfg3.win 3).blk t).view.emb (ix2 p k)) = _
  refine congrArg _ (funext fun a => Fin.ext ?_)
  match a with
  | ⟨0, _⟩ => show win3_3.index t (0 : Fin 2) * 2000 + 1 * p.val = r.val; omega
  | ⟨1, _⟩ => show win3_3.index t (1 : Fin 2) * 256 + 1 * k.val = k.val; omega

/-- Window 4's block at every point is its whole array. -/
theorem whole3_4 (c : Dev nD) (t : Fin cfg3.N) (k : Fin 256) (q : Fin 256) :
    (iblk3 V c 4 t : S256x256.Idx → EReal) (ix2 k q)
      = (V c (Pipeline.arrRef spec3 4) : S256x256.Idx → EReal) (ix2 k q) := by
  obtain ⟨e00, e01, e10, e11, e20, e21, e30, e31, e40, e41, e50, e51, e60, e61, e70, e71, e80, e81, e90, e91⟩ := index3 t
  unfold iblk3
  rw [View.read_apply]
  show V c (Pipeline.arrRef spec3 4) (((cfg3.win 4).blk t).view.emb (ix2 k q)) = _
  refine congrArg _ (funext fun a => Fin.ext ?_)
  match a with
  | ⟨0, _⟩ => show win3_4.index t (0 : Fin 2) * 256 + 1 * k.val = k.val; omega
  | ⟨1, _⟩ => show win3_4.index t (1 : Fin 2) * 256 + 1 * q.val = q.val; omega

/-- Window 5's block at every point is its whole array. -/
theorem whole3_5 (c : Dev nD) (t : Fin cfg3.N) (k : Fin 256) (q : Fin 256) :
    (iblk3 V c 5 t : S256x256.Idx → EReal) (ix2 k q)
      = (V c (Pipeline.arrRef spec3 5) : S256x256.Idx → EReal) (ix2 k q) := by
  obtain ⟨e00, e01, e10, e11, e20, e21, e30, e31, e40, e41, e50, e51, e60, e61, e70, e71, e80, e81, e90, e91⟩ := index3 t
  unfold iblk3
  rw [View.read_apply]
  show V c (Pipeline.arrRef spec3 5) (((cfg3.win 5).blk t).view.emb (ix2 k q)) = _
  refine congrArg _ (funext fun a => Fin.ext ?_)
  match a with
  | ⟨0, _⟩ => show win3_5.index t (0 : Fin 2) * 256 + 1 * k.val = k.val; omega
  | ⟨1, _⟩ => show win3_5.index t (1 : Fin 2) * 256 + 1 * q.val = q.val; omega

/-- Window 6's block at every point is its whole array. -/
theorem whole3_6 (c : Dev nD) (t : Fin cfg3.N) (k : Fin 256) (q : Fin 256) :
    (iblk3 V c 6 t : S256x256.Idx → EReal) (ix2 k q)
      = (V c (Pipeline.arrRef spec3 6) : S256x256.Idx → EReal) (ix2 k q) := by
  obtain ⟨e00, e01, e10, e11, e20, e21, e30, e31, e40, e41, e50, e51, e60, e61, e70, e71, e80, e81, e90, e91⟩ := index3 t
  unfold iblk3
  rw [View.read_apply]
  show V c (Pipeline.arrRef spec3 6) (((cfg3.win 6).blk t).view.emb (ix2 k q)) = _
  refine congrArg _ (funext fun a => Fin.ext ?_)
  match a with
  | ⟨0, _⟩ => show win3_6.index t (0 : Fin 2) * 256 + 1 * k.val = k.val; omega
  | ⟨1, _⟩ => show win3_6.index t (1 : Fin 2) * 256 + 1 * q.val = q.val; omega

/-- Window 7's block at every point is its whole array. -/
theorem whole3_7 (c : Dev nD) (t : Fin cfg3.N) (k : Fin 256) (q : Fin 256) :
    (iblk3 V c 7 t : S256x256.Idx → EReal) (ix2 k q)
      = (V c (Pipeline.arrRef spec3 7) : S256x256.Idx → EReal) (ix2 k q) := by
  obtain ⟨e00, e01, e10, e11, e20, e21, e30, e31, e40, e41, e50, e51, e60, e61, e70, e71, e80, e81, e90, e91⟩ := index3 t
  unfold iblk3
  rw [View.read_apply]
  show V c (Pipeline.arrRef spec3 7) (((cfg3.win 7).blk t).view.emb (ix2 k q)) = _
  refine congrArg _ (funext fun a => Fin.ext ?_)
  match a with
  | ⟨0, _⟩ => show win3_7.index t (0 : Fin 2) * 256 + 1 * k.val = k.val; omega
  | ⟨1, _⟩ => show win3_7.index t (1 : Fin 2) * 256 + 1 * q.val = q.val; omega

/-- The bias window's block at every point is its whole one-row array. -/
theorem whole3_8 (c : Dev nD) (t : Fin cfg3.N) (q : Fin 256) :
    (iblk3 V c 8 t : S1x256.Idx → EReal) (ix2 (0 : Fin 1) q)
      = (V c (Pipeline.arrRef spec3 8) : S1x256.Idx → EReal) (ix2 (0 : Fin 1) q) := by
  obtain ⟨e00, e01, e10, e11, e20, e21, e30, e31, e40, e41, e50, e51, e60, e61, e70, e71, e80, e81, e90, e91⟩ := index3 t
  unfold iblk3
  rw [View.read_apply]
  show V c (Pipeline.arrRef spec3 8) (((cfg3.win 8).blk t).view.emb (ix2 (0 : Fin 1) q)) = _
  refine congrArg _ (funext fun a => Fin.ext ?_)
  match a with
  | ⟨0, _⟩ => show win3_8.index t (0 : Fin 2) * 1 + 1 * 0 = 0; omega
  | ⟨1, _⟩ => show win3_8.index t (1 : Fin 2) * 256 + 1 * q.val = q.val; omega

/-- The array the region leaves in its output window: the layer of the arrays the region finds, entry by entry. -/
def out3 (c : Dev nD) : S60000x256.Idx → EReal :=
  layerArr (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))

/-- What point `t` writes back is block `t` of that array. -/
theorem flushed3_eq (c : Dev nD) (t : Fin cfg3.N) :
    (dat3 (F := Ideal) V c).flushed 9 t = ((cfg3.win 9).blk t).view.read (Elt Ideal) (out3 V c) := by
  show (cfg3.win 9).cut (grid3.coords t) ((dat3 V c).after 9 t) = _
  rw [after3_9]
  unfold out3_9
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  have hN : cfg3.N = 30 := N_3
  have hr : t.val * 2000 + p.val < 60000 := by have := t.isLt; have := p.isLt; omega
  obtain ⟨e00, e01, e10, e11, e20, e21, e30, e31, e40, e41, e50, e51, e60, e61, e70, e71, e80, e81, e90, e91⟩ := index3 t
  have hemb : ((cfg3.win 9).blk t).view.emb (ix2 p q) = ix2 (⟨t.val * 2000 + p.val, hr⟩ : Fin 60000) q := by
    funext a; apply Fin.ext
    match a with
    | ⟨0, _⟩ => show win3_9.index t (0 : Fin 2) * 2000 + 1 * p.val = t.val * 2000 + p.val; omega
    | ⟨1, _⟩ => show win3_9.index t (1 : Fin 2) * 256 + 1 * q.val = q.val; omega
  rw [View.read_apply, hemb]
  show k3_pay1 (k3_pay2 (iblk3 V c 0 t) (iblk3 V c 1 t) (iblk3 V c 2 t) (iblk3 V c 3 t) (iblk3 V c 4 t)
      (iblk3 V c 5 t) (iblk3 V c 6 t) (iblk3 V c 7 t) (iblk3 V c 8 t)) (k3_pay3 (F := Ideal)) (ix2 p q) = _
  refine (pay3_apply (iblk3 V c 0 t) (iblk3 V c 1 t) (iblk3 V c 2 t) (iblk3 V c 3 t) (iblk3 V c 4 t)
      (iblk3 V c 5 t) (iblk3 V c 6 t) (iblk3 V c 7 t) (iblk3 V c 8 t) p q).trans ?_
  exact layerEntry_congr (iblk3 V c 0 t) (iblk3 V c 1 t) (iblk3 V c 2 t) (iblk3 V c 3 t) (iblk3 V c 4 t)
      (iblk3 V c 5 t) (iblk3 V c 6 t) (iblk3 V c 7 t) (iblk3 V c 8 t)
      (V c (Pipeline.arrRef spec3 0)) (V c (Pipeline.arrRef spec3 1)) (V c (Pipeline.arrRef spec3 2))
      (V c (Pipeline.arrRef spec3 3)) (V c (Pipeline.arrRef spec3 4)) (V c (Pipeline.arrRef spec3 5))
      (V c (Pipeline.arrRef spec3 6)) (V c (Pipeline.arrRef spec3 7)) (V c (Pipeline.arrRef spec3 8))
      p ⟨t.val * 2000 + p.val, hr⟩ q
      (fun k => rows3_0 V c t p k _ rfl) (fun k => rows3_1 V c t p k _ rfl) (fun k => rows3_2 V c t p k _ rfl)
      (fun k => rows3_3 V c t p k _ rfl) (fun k => whole3_4 V c t k q) (fun k => whole3_5 V c t k q)
      (fun k => whole3_6 V c t k q) (fun k => whole3_7 V c t k q) (whole3_8 V c t q)

/-- An entry of the output array is in point `t`'s block iff each coordinate is in the block's range on its axis. -/
theorem mem_blk3 (t : Fin cfg3.N) (i : S60000x256.Idx) :
    i ∈ ((cfg3.win 9).blk t).view.set ↔ ∀ a : Fin 2, win3_9.index t a * S2000x256.size a ≤ (i a).val
      ∧ (i a).val < win3_9.index t a * S2000x256.size a + S2000x256.size a := by
  show i ∈ ((View.whole main_v140).slice (win3_9.rect t)).set ↔ _
  rw [View.set_slice_whole, Rect.mem_set_unit]
  exact Iff.rfl

/-- Row `r` of the output array is written back by point `r / 2000`. -/
theorem cover3 (i : S60000x256.Idx) :
    ∃ t : Fin cfg3.N, (cfg3.win 9).flush t = true ∧ i ∈ ((cfg3.win 9).blk t).view.set := by
  have h0 : (i 0).val < 60000 := (i 0).isLt
  have h1 : (i 1).val < 256 := (i 1).isLt
  have hN : cfg3.N = 30 := N_3
  have ht : (i 0).val / 2000 < cfg3.N := by rw [hN]; omega
  refine ⟨⟨(i 0).val / 2000, ht⟩, flush3_9 _, ?_⟩
  rw [mem_blk3]
  obtain ⟨-, -, -, -, -, -, -, -, -, -, -, -, -, -, -, -, -, -, e90, e91⟩ := index3 ⟨(i 0).val / 2000, ht⟩
  intro a
  match a with
  | ⟨0, _⟩ =>
    show win3_9.index ⟨(i 0).val / 2000, ht⟩ (0 : Fin 2) * 2000 ≤ (i 0).val
      ∧ (i 0).val < win3_9.index ⟨(i 0).val / 2000, ht⟩ (0 : Fin 2) * 2000 + 2000
    rw [e90]; show (i 0).val / 2000 * 2000 ≤ (i 0).val ∧ (i 0).val < (i 0).val / 2000 * 2000 + 2000; omega
  | ⟨1, _⟩ =>
    show win3_9.index ⟨(i 0).val / 2000, ht⟩ (1 : Fin 2) * 256 ≤ (i 1).val
      ∧ (i 1).val < win3_9.index ⟨(i 0).val / 2000, ht⟩ (1 : Fin 2) * 256 + 256
    rw [e91]; omega

/-- The output array after the region's run is the layer of the arrays the region finds. -/
theorem final3 (c : Dev nD) : (dat3 (F := Ideal) V c).arrAt 9 cfg3.N = out3 V c :=
  (dat3 (F := Ideal) V c).arrAt_eq_of_cover 9 (out3 V c) (fun t _ => flushed3_eq V c t) cover3

/-- Entry `(r, q)` of the output array after the region's run, the nine arrays the region finds named. -/
theorem region3_apply_of (c : Dev nD) (X A0 A1 A2 : S60000x256.Idx → EReal) (Wr W0 W1 W2 : S256x256.Idx → EReal)
    (b : S1x256.Idx → EReal)
    (hX : V c (Pipeline.arrRef spec3 0) = X) (hA0 : V c (Pipeline.arrRef spec3 1) = A0)
    (hA1 : V c (Pipeline.arrRef spec3 2) = A1) (hA2 : V c (Pipeline.arrRef spec3 3) = A2)
    (hWr : V c (Pipeline.arrRef spec3 4) = Wr) (hW0 : V c (Pipeline.arrRef spec3 5) = W0)
    (hW1 : V c (Pipeline.arrRef spec3 6) = W1) (hW2 : V c (Pipeline.arrRef spec3 7) = W2)
    (hb : V c (Pipeline.arrRef spec3 8) = b) (r : Fin 60000) (q : Fin 256) :
    (dat3 (F := Ideal) V c).arrAt 9 cfg3.N (ix2 r q)
      = max (((((∑ k : Fin 256, X (ix2 r k) * Wr (ix2 k q)) + (∑ k : Fin 256, A0 (ix2 r k) * W0 (ix2 k q)))
            + (∑ k : Fin 256, A1 (ix2 r k) * W1 (ix2 k q))) + (∑ k : Fin 256, A2 (ix2 r k) * W2 (ix2 k q)))
          + b (ix2 (0 : Fin 1) q)) 0 := by
  subst hX hA0 hA1 hA2 hWr hW0 hW1 hW2 hb
  rw [final3 V c]
  rfl

end Cert.KernelIdeal.RegionLayer

end
-- ==== Proof.StageLayer1.lean ====
/-
  The first graph-convolution layer.

  The layer kernel tiles the node rows into blocks of 2000 and, for each block, adds the four matrix products (the node
  table by the root weights, each relation's aggregated messages by that relation's weights) and the bias row, then
  takes the positive part. The reference adds the bias to the root product first and the three relation products after;
  addition of extended reals is commutative and associative, so the two sums are the same number, whatever is infinite.
  With the layer's inputs already the reference's stages, its output array is the reference's first hidden table.
-/
import proofs.«174049_j50079318671420_1_alg».proof.Proof.Gen.KernelIdeal.Frame
import proofs.«174049_j50079318671420_1_alg».proof.Proof.RefRead
import proofs.«174049_j50079318671420_1_alg».proof.Proof.StageGlue1
import proofs.«174049_j50079318671420_1_alg».proof.Proof.RegionLayer
import Idealize.ShloMosaic.Lib.ValueIdx

set_option maxRecDepth 16384

noncomputable section

namespace Cert.Bridge

open scoped BigOperators
open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.ReadP (val_main_v105 val_main_v105_apply val_main_v104 val_main_v104_apply val_main_v51 val_main_v51_apply lidx_main_v51 ridx_main_v51 val_main_v71 val_main_v71_apply lidx_main_v71 ridx_main_v71 val_main_v87 val_main_v87_apply lidx_main_v87 ridx_main_v87 val_main_v103 val_main_v103_apply lidx_main_v103 ridx_main_v103 val_main_v56 val_main_v56_apply val_main_v72 val_main_v72_apply val_main_v88 val_main_v88_apply val_main_v55 val_main_v55_apply idx_main_v55 val_main_v54 val_main_call3_v0 val_main_call3_v0_apply val_main_call3_cst val_main_v8 val_main_v68 val_main_v84 val_main_v100 val_main_v50 val_main_v70 val_main_v86 val_main_v102 val_main_v125 val_main_v141 val_main_v157 val_main_v107 val_main_v127 val_main_v143 val_main_v159 val_main_v111)

variable (m : (ℓ : Loc nD τ sig) → Buf (Elt Ideal) ℓ) (ρ : Dev nD → PrngReg) (c : Dev nD)

set_option quotPrecheck false in
local notation "𝔸" b => m ((c : Thread nD τ).loc b)

local macro "idx2" : tactic => `(tactic| (funext a; match a with | ⟨0, _⟩ => rfl | ⟨1, _⟩ => rfl))

/-- After the layer's region its output array is the reference's hidden table of this layer. -/
theorem layer1 : W12 m ρ c (Proc.devRef .tc main_v92) = val_main_v105 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg11) (𝔸 main_arg12) (𝔸 main_arg13) (𝔸 main_arg14) (𝔸 main_arg15) (𝔸 main_arg16) := by
  funext i
  obtain ⟨r, q, rfl⟩ : ∃ (r : Fin 60000) (q : Fin 256), i = ix2 r q := ⟨i 0, i 1, eq_ix2 i⟩
  refine (congrFun (W12_arr m ρ c 9) (ix2 r q)).trans ?_
  refine (Cert.KernelIdeal.RegionLayer.region2_apply_of (V11 m ρ) c _ _ _ _ _ _ _ _ _
    (glue1_x m ρ c) (glue1_a0 m ρ c) (glue1_a1 m ρ c) (glue1_a2 m ρ c) (glue1_wr m ρ c) (glue1_w0 m ρ c) (glue1_w1 m ρ c) (glue1_w2 m ρ c) (glue1_b m ρ c) r q).trans ?_
  rw [val_main_v105_apply, val_main_v104_apply, val_main_v103_apply, val_main_v88_apply, val_main_v87_apply,
    val_main_v72_apply, val_main_v71_apply, val_main_v56_apply, val_main_v51_apply, val_main_v55_apply]
  have l0 : ∀ k, lidx_main_v51 (ix2 r q) k = ix2 r k := fun k => by idx2
  have r0 : ∀ k, ridx_main_v51 (ix2 r q) k = ix2 k q := fun k => by idx2
  have l1 : ∀ k, lidx_main_v71 (ix2 r q) k = ix2 r k := fun k => by idx2
  have r1 : ∀ k, ridx_main_v71 (ix2 r q) k = ix2 k q := fun k => by idx2
  have l2 : ∀ k, lidx_main_v87 (ix2 r q) k = ix2 r k := fun k => by idx2
  have r2 : ∀ k, ridx_main_v87 (ix2 r q) k = ix2 k q := fun k => by idx2
  have l3 : ∀ k, lidx_main_v103 (ix2 r q) k = ix2 r k := fun k => by idx2
  have r3 : ∀ k, ridx_main_v103 (ix2 r q) k = ix2 k q := fun k => by idx2
  have hb : idx_main_v55 (ix2 r q) = ix2 (0 : Fin 1) q := by idx2
  simp only [l0, r0, l1, r1, l2, r2, l3, r3, hb, Ideal.maximumf_def, Ideal.addf_def]
  refine congrArg₂ (max : EReal → EReal → EReal) ?_ ?_
  · have key : ∀ a b c d e : EReal, a + b + c + d + e = a + e + b + c + d := fun a b c d e => by
      rw [add_right_comm (a + b + c) d e, add_right_comm (a + b) c e, add_right_comm a b e]
    exact key _ _ _ _ _
  · rw [val_main_call3_v0_apply, Cert.ReferenceIdeal.ReadP.val_main_call3_cst_apply]
    exact Ideal.ofBits_zero_f32.symm

end Cert.Bridge

end
-- ==== Proof.StageGlue2.lean ====
/-
  The host operations between the two graph-convolution layers.

  Again the kernel program and the reference apply the same operations: each relation's messages are gathered from the
  first hidden table, summed at the destinations and scaled by the inverse in-degree computed before the first layer,
  and the second layer's weights and bias are cut out of their stacks. The hidden table going in is the reference's
  (the first layer), so every value coming out is the reference's stage, by unfolding both sides to one composition.
-/
import proofs.«174049_j50079318671420_1_alg».proof.Proof.Gen.KernelIdeal.Frame
import proofs.«174049_j50079318671420_1_alg».proof.Proof.RefRead
import proofs.«174049_j50079318671420_1_alg».proof.Proof.KernelKept
import proofs.«174049_j50079318671420_1_alg».proof.Proof.StageGlue1
import proofs.«174049_j50079318671420_1_alg».proof.Proof.StageGlue1Deg
import proofs.«174049_j50079318671420_1_alg».proof.Proof.StageLayer1
import Idealize.ShloMosaic.Lib.ValueLayout
import Idealize.ShloMosaic.Lib.ValueIdx

set_option maxRecDepth 16384

noncomputable section

namespace Cert.Bridge

open scoped BigOperators
open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.ReadP (val_main_v105 val_main_v125 val_main_v141 val_main_v157 val_main_v107 val_main_v127 val_main_v143 val_main_v159 val_main_v110 val_main_v111 val_main_v111_apply idx_main_v111 val_main_v24 val_main_v36 val_main_v48 val_main_v10 val_main_v12)

variable (m : (ℓ : Loc nD τ sig) → Buf (Elt Ideal) ℓ) (ρ : Dev nD → PrngReg) (c : Dev nD)

set_option quotPrecheck false in
local notation "𝔸" b => m ((c : Thread nD τ).loc b)

local macro "stretch3" : tactic => `(tactic| (dsimp only [W13, hostOps3]; after_results_simp))

/-- The first hidden table is still in place. -/
theorem glue2_x : W13 m ρ c (Proc.devRef .tc main_v92) = val_main_v105 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg11) (𝔸 main_arg12) (𝔸 main_arg13) (𝔸 main_arg14) (𝔸 main_arg15) (𝔸 main_arg16) :=
  (Kept.W13_v92 m ρ c).trans (layer1 m ρ c)

set_option maxHeartbeats 8000000 in
/-- Relation 0's mean-aggregated messages of the hidden table. -/
theorem glue2_a0 : W13 m ρ c (Proc.devRef .tc main_v104) = val_main_v125 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg11) (𝔸 main_arg12) (𝔸 main_arg13) (𝔸 main_arg14) (𝔸 main_arg15) (𝔸 main_arg16) := by
  stretch3
  rw [layer1, Kept.W12_arg11, Kept.W12_arg12, Kept.W12_v20, glue1_d0]
  rfl

set_option maxHeartbeats 8000000 in
/-- Relation 1's. -/
theorem glue2_a1 : W13 m ρ c (Proc.devRef .tc main_v116) = val_main_v141 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg11) (𝔸 main_arg12) (𝔸 main_arg13) (𝔸 main_arg14) (𝔸 main_arg15) (𝔸 main_arg16) := by
  stretch3
  rw [layer1, Kept.W12_arg13, Kept.W12_v8, glue1_t1, Kept.W12_v32, glue1_d1]
  rfl

set_option maxHeartbeats 8000000 in
/-- Relation 2's. -/
theorem glue2_a2 : W13 m ρ c (Proc.devRef .tc main_v128) = val_main_v157 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg11) (𝔸 main_arg12) (𝔸 main_arg13) (𝔸 main_arg14) (𝔸 main_arg15) (𝔸 main_arg16) := by
  stretch3
  rw [layer1, Kept.W12_v6, glue1_s2, Kept.W12_arg16, Kept.W12_v44, glue1_d2]
  rfl

set_option maxHeartbeats 8000000 in
/-- The second layer's root weights. -/
theorem glue2_wr : W13 m ρ c (Proc.devRef .tc main_v130) = val_main_v107 (F := Ideal) (𝔸 main_arg7) := by
  stretch3
  rw [Kept.W12_arg7]
  rfl

set_option maxHeartbeats 8000000 in
/-- The second layer's relation weights. -/
theorem glue2_w0 : W13 m ρ c (Proc.devRef .tc main_v132) = val_main_v127 (F := Ideal) (𝔸 main_arg6) := by
  stretch3
  rw [Kept.W12_arg6]
  rfl
set_option maxHeartbeats 8000000 in
theorem glue2_w1 : W13 m ρ c (Proc.devRef .tc main_v134) = val_main_v143 (F := Ideal) (𝔸 main_arg6) := by
  stretch3
  rw [Kept.W12_arg6]
  rfl
set_option maxHeartbeats 8000000 in
theorem glue2_w2 : W13 m ρ c (Proc.devRef .tc main_v136) = val_main_v159 (F := Ideal) (𝔸 main_arg6) := by
  stretch3
  rw [Kept.W12_arg6]
  rfl

set_option maxHeartbeats 8000000 in
/-- The second layer's bias row: cast to one row here, broadcast to one row in the reference; the same entries. -/
theorem glue2_b : W13 m ρ c (Proc.devRef .tc main_v139) = val_main_v111 (F := Ideal) (𝔸 main_arg8) := by
  stretch3
  rw [Kept.W12_arg8]
  funext i
  obtain ⟨z, q, rfl⟩ : ∃ (z : Fin 1) (q : Fin 256), i = ix2 z q := ⟨i 0, i 1, eq_ix2 i⟩
  obtain rfl : z = 0 := Subsingleton.elim _ _
  show shapeCast S1x256 (shapeCast S256 (extractStridedSlice S1x256 ![1, 0] (𝔸 main_arg8) slices_S2x256_S1x256_1_0) shapeCasts_S1x256_S256)
    shapeCasts_S256_S1x256 (ix2 (0 : Fin 1) q) = _
  rw [shapeCast_a_1a_apply, val_main_v111_apply]
  exact congrArg (val_main_v110 (F := Ideal) (𝔸 main_arg8)) (funext fun a => match a with | ⟨0, _⟩ => rfl)

end Cert.Bridge

end
-- ==== Proof.StageLayer2.lean ====
/-
  The second graph-convolution layer: the first layer's text with the second layer's weights and inputs.

  Four matrix products and the bias row are added, in one order by the kernel and in another by the reference, and the
  positive part is taken; the sums agree because addition of extended reals is commutative and associative.
-/
import proofs.«174049_j50079318671420_1_alg».proof.Proof.Gen.KernelIdeal.Frame
import proofs.«174049_j50079318671420_1_alg».proof.Proof.RefRead
import proofs.«174049_j50079318671420_1_alg».proof.Proof.StageGlue2
import proofs.«174049_j50079318671420_1_alg».proof.Proof.RegionLayer
import Idealize.ShloMosaic.Lib.ValueIdx

set_option maxRecDepth 16384

noncomputable section

namespace Cert.Bridge

open scoped BigOperators
open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.ReadP (val_main_v162 val_main_v162_apply val_main_v161 val_main_v161_apply val_main_v108 val_main_v108_apply lidx_main_v108 ridx_main_v108 val_main_v128 val_main_v128_apply lidx_main_v128 ridx_main_v128 val_main_v144 val_main_v144_apply lidx_main_v144 ridx_main_v144 val_main_v160 val_main_v160_apply lidx_main_v160 ridx_main_v160 val_main_v113 val_main_v113_apply val_main_v129 val_main_v129_apply val_main_v145 val_main_v145_apply val_main_v112 val_main_v112_apply idx_main_v112 val_main_v111 val_main_call4_v0 val_main_call4_v0_apply val_main_call4_cst val_main_v8 val_main_v68 val_main_v84 val_main_v100 val_main_v50 val_main_v70 val_main_v86 val_main_v102 val_main_v54 val_main_v105 val_main_v125 val_main_v141 val_main_v157 val_main_v107 val_main_v127 val_main_v143 val_main_v159)

variable (m : (ℓ : Loc nD τ sig) → Buf (Elt Ideal) ℓ) (ρ : Dev nD → PrngReg) (c : Dev nD)

set_option quotPrecheck false in
local notation "𝔸" b => m ((c : Thread nD τ).loc b)

local macro "idx2" : tactic => `(tactic| (funext a; match a with | ⟨0, _⟩ => rfl | ⟨1, _⟩ => rfl))

/-- After the layer's region its output array is the reference's hidden table of this layer. -/
theorem layer2 : W14 m ρ c (Proc.devRef .tc main_v140) = val_main_v162 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg11) (𝔸 main_arg12) (𝔸 main_arg13) (𝔸 main_arg14) (𝔸 main_arg15) (𝔸 main_arg16) := by
  funext i
  obtain ⟨r, q, rfl⟩ : ∃ (r : Fin 60000) (q : Fin 256), i = ix2 r q := ⟨i 0, i 1, eq_ix2 i⟩
  refine (congrFun (W14_arr m ρ c 9) (ix2 r q)).trans ?_
  refine (Cert.KernelIdeal.RegionLayer.region3_apply_of (V13 m ρ) c _ _ _ _ _ _ _ _ _
    (glue2_x m ρ c) (glue2_a0 m ρ c) (glue2_a1 m ρ c) (glue2_a2 m ρ c) (glue2_wr m ρ c) (glue2_w0 m ρ c) (glue2_w1 m ρ c) (glue2_w2 m ρ c) (glue2_b m ρ c) r q).trans ?_
  rw [val_main_v162_apply, val_main_v161_apply, val_main_v160_apply, val_main_v145_apply, val_main_v144_apply,
    val_main_v129_apply, val_main_v128_apply, val_main_v113_apply, val_main_v108_apply, val_main_v112_apply]
  have l0 : ∀ k, lidx_main_v108 (ix2 r q) k = ix2 r k := fun k => by idx2
  have r0 : ∀ k, ridx_main_v108 (ix2 r q) k = ix2 k q := fun k => by idx2
  have l1 : ∀ k, lidx_main_v128 (ix2 r q) k = ix2 r k := fun k => by idx2
  have r1 : ∀ k, ridx_main_v128 (ix2 r q) k = ix2 k q := fun k => by idx2
  have l2 : ∀ k, lidx_main_v144 (ix2 r q) k = ix2 r k := fun k => by idx2
  have r2 : ∀ k, ridx_main_v144 (ix2 r q) k = ix2 k q := fun k => by idx2
  have l3 : ∀ k, lidx_main_v160 (ix2 r q) k = ix2 r k := fun k => by idx2
  have r3 : ∀ k, ridx_main_v160 (ix2 r q) k = ix2 k q := fun k => by idx2
  have hb : idx_main_v112 (ix2 r q) = ix2 (0 : Fin 1) q := by idx2
  simp only [l0, r0, l1, r1, l2, r2, l3, r3, hb, Ideal.maximumf_def, Ideal.addf_def]
  refine congrArg₂ (max : EReal → EReal → EReal) ?_ ?_
  · have key : ∀ a b c d e : EReal, a + b + c + d + e = a + e + b + c + d := fun a b c d e => by
      rw [add_right_comm (a + b + c) d e, add_right_comm (a + b) c e, add_right_comm a b e]
    exact key _ _ _ _ _
  · rw [val_main_call4_v0_apply, Cert.ReferenceIdeal.ReadP.val_main_call4_cst_apply]
    exact Ideal.ofBits_zero_f32.symm

end Cert.Bridge

end
-- ==== Proof.StageFinal.lean ====
/-
  The output projection.

  The kernel program cuts the news rows out of the second hidden table, pads the projection matrix and its bias with
  zero columns from 8 up to 128 lanes, runs the matrix-product-plus-bias kernel on the padded operands in blocks of 1000
  rows, and keeps the first 8 columns of the result. At a kept column the padded matrix and the padded bias read the
  unpadded ones, so the kept entry is the inner product of the hidden row with the projection column plus the bias
  entry: the reference's result, which multiplies by the unpadded matrix directly.
-/
import proofs.«174049_j50079318671420_1_alg».proof.Proof.Gen.KernelIdeal.Frame
import proofs.«174049_j50079318671420_1_alg».proof.Proof.RefRead
import proofs.«174049_j50079318671420_1_alg».proof.Proof.KernelKept
import proofs.«174049_j50079318671420_1_alg».proof.Proof.StageLayer2
import proofs.«174049_j50079318671420_1_alg».proof.Proof.RegionAffine
import Idealize.ShloMosaic.Lib.ValueLayout
import Idealize.ShloMosaic.Lib.ValueIdx
import Idealize.ShloMosaic.Lib.KernelVsHost
import Idealize.ShloMosaic.Lib.Pipeline.Value

set_option maxRecDepth 16384

noncomputable section

namespace Cert.Bridge

open scoped BigOperators
open Idealize.ShloMosaic Idealize.ShloMosaic.TcCoe Idealize.ShloMosaic.StableHlo Idealize.ShloMosaic.ValueIdx
open Idealize.SL.Sem
open Cert.KernelIdeal Cert.KernelIdeal.Gen
open Cert.ReferenceIdeal.ReadP (val_main_v162 val_main_v163 val_main_v164 val_main_v165 val_main_v166 val_main_v167 val_main_v163_apply val_main_v164_apply val_main_v165_apply val_main_v166_apply val_main_v167_apply idx_main_v163 lidx_main_v164 ridx_main_v164 idx_main_v165 idx_main_v166)

variable (m : (ℓ : Loc nD τ sig) → Buf (Elt Ideal) ℓ) (ρ : Dev nD → PrngReg) (c : Dev nD)

set_option quotPrecheck false in
local notation "𝔸" b => m ((c : Thread nD τ).loc b)

local macro "stretch4" : tactic => `(tactic| (dsimp only [W19, W18, W17, W16, W15, hostOps4_4, hostOps4_3, hostOps4_2, hostOps4_1, hostOps4]; after_results_simp))

/-- The news rows of the second hidden table. -/
theorem final_x : W19 m ρ c (Proc.devRef .tc main_v143) = val_main_v163 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg11) (𝔸 main_arg12) (𝔸 main_arg13) (𝔸 main_arg14) (𝔸 main_arg15) (𝔸 main_arg16) := by
  stretch4
  rw [layer2]
  rfl

/-- The projection matrix padded with zero columns. -/
theorem final_w : W19 m ρ c (Proc.devRef .tc main_v141)
    = pad (s := S256x8) S256x128 ![0, 0] ![0, 120] ![0, 0] (𝔸 main_arg9) (sitofp (F := Ideal) .f32 (constantI S_ 32 0#32)) pads_S256x8_S256x128_000_01200 h_S_ := by
  stretch4
  rw [Kept.W14_arg9]
  rfl

/-- The projection bias padded with zeros, as one row. -/
theorem final_b : W19 m ρ c (Proc.devRef .tc main_v144)
    = shapeCast S1x128 (pad (s := S8) S128 ![0] ![120] ![0] (𝔸 main_arg10) (sitofp (F := Ideal) .f32 (constantI S_ 32 0#32)) pads_S8_S128_01200 h_S_) shapeCasts_S128_S1x128 := by
  stretch4
  rw [Kept.W14_arg10]
  rfl

/-- The program's result is the reference's. -/
theorem result_eq : W21 m ρ c (Proc.devRef .tc main_v146) = val_main_v167 (F := Ideal) (𝔸 main_arg0) (𝔸 main_arg1) (𝔸 main_arg2) (𝔸 main_arg3) (𝔸 main_arg4) (𝔸 main_arg5) (𝔸 main_arg6) (𝔸 main_arg7) (𝔸 main_arg8) (𝔸 main_arg9) (𝔸 main_arg10) (𝔸 main_arg11) (𝔸 main_arg12) (𝔸 main_arg13) (𝔸 main_arg14) (𝔸 main_arg15) (𝔸 main_arg16) := by
  have h21 : W21 m ρ c (Proc.devRef .tc main_v146)
      = extractStridedSlice S10000x8 ![0, 0] (W20 m ρ c (Proc.devRef .tc main_v145)) slices_S10000x128_S10000x8_0_0 := by
    dsimp only [W21, hostOps5]; after_results <;> rfl
  rw [h21]
  funext i
  obtain ⟨r, j, rfl⟩ : ∃ (r : Fin 10000) (j : Fin 8), i = ix2 r j := ⟨i 0, i 1, eq_ix2 i⟩
  have hj : j.val < 128 := by have := j.isLt; omega
  rw [slice2_axis1_apply 0 _ slices_S10000x128_S10000x8_0_0 r j (⟨j.val, hj⟩ : Fin 128) (Nat.zero_add _).symm]
  refine (congrFun (W20_arr m ρ c 3) (ix2 r (⟨j.val, hj⟩ : Fin 128))).trans ?_
  refine (Cert.KernelIdeal.RegionAffine.region4_apply_of (V19 m ρ) c _ _ _ (final_x m ρ c) (final_w m ρ c) (final_b m ρ c)
    r (⟨j.val, hj⟩ : Fin 128)).trans ?_
  rw [shapeCast_a_1a_apply]
  rw [val_main_v167_apply, val_main_v164_apply, val_main_v166_apply, val_main_v165_apply]
  refine congrArg₂ (· + ·) (Finset.sum_congr rfl fun k _ => congrArg₂ (· * ·) (congrArg _ ?_) ?_) ?_
  · funext a; match a with | ⟨0, _⟩ => rfl | ⟨1, _⟩ => rfl
  · refine (pad_apply_of_inside _ _ _ _ _ pads_S256x8_S256x128_000_01200 h_S_ _ (ix2 k j) fun a => ?_).trans (congrArg _ ?_)
    · match a with
      | ⟨0, _⟩ => show k.val = 0 + k.val * (0 + 1); omega
      | ⟨1, _⟩ => show j.val = 0 + j.val * (0 + 1); omega
    · funext a; match a with | ⟨0, _⟩ => rfl | ⟨1, _⟩ => rfl
  · refine (pad_apply_of_inside _ _ _ _ _ pads_S8_S128_01200 h_S_ _ (ix1 j) fun a => ?_).trans (congrArg _ ?_)
    · match a with
      | ⟨0, _⟩ => show j.val = 0 + j.val * (0 + 1); omega
    · funext a; match a with | ⟨0, _⟩ => rfl

end Cert.Bridge

end
-- ==== Proof.lean ====
/-
  The certificate of a two-layer relational graph convolution over two node types.

  The kernel program encodes each node type by a tiled matrix product with bias, joins the two tables, and for each of
  two layers gathers every relation's messages along the edges, averages them at the destinations, and feeds the node
  table and the three aggregates to a tiled kernel that adds four matrix products and the bias and takes the positive
  part; a last tiled product, on operands padded to 128 lanes and cut back to 8, projects the news nodes. The reference
  does the same with whole-array products, adding each layer's terms in another order.

  At the ideal values a change of float format is the identity and a tiled product is the whole product, so the two
  programs compute the same extended real at every entry: the encoders' and the layers' entries are sums that agree
  term by term (addition of extended reals being commutative and associative, no finiteness is needed), the host
  operations between the kernels are literally the reference's, and the padded columns are never read at a kept entry.

  The three frames: the two kernel programs' are generated whole; the reference's is its generated run with the result
  dropped. The idealization rewrote nothing, so there is nothing to preserve. The algebraic claim pairs the kernel
  program's run, whose result is read off the last segment boundary, with the reference's run.
-/
import proofs.«174049_j50079318671420_1_alg».proof.Defs
import proofs.«174049_j50079318671420_1_alg».proof.Proof.Gen.Kernel
import proofs.«174049_j50079318671420_1_alg».proof.Proof.Gen.Kernel.Skeleton
import proofs.«174049_j50079318671420_1_alg».proof.Proof.Gen.Kernel.Launch
import proofs.«174049_j50079318671420_1_alg».proof.Proof.Gen.Kernel.Points
import proofs.«174049_j50079318671420_1_alg».proof.Proof.Gen.Kernel.Frame
import proofs.«174049_j50079318671420_1_alg».proof.Proof.Gen.KernelIdeal
import proofs.«174049_j50079318671420_1_alg».proof.Proof.Gen.KernelIdeal.Skeleton
import proofs.«174049_j50079318671420_1_alg».proof.Proof.Gen.KernelIdeal.Launch
import proofs.«174049_j50079318671420_1_alg».proof.Proof.Gen.KernelIdeal.Points
import proofs.«174049_j50079318671420_1_alg».proof.Proof.Gen.KernelIdeal.Frame
import proofs.«174049_j50079318671420_1_alg».proof.Proof.Gen.ReferenceIdeal
import proofs.«174049_j50079318671420_1_alg».proof.Proof.Gen.Pre_finite_inputs
import proofs.«174049_j50079318671420_1_alg».proof.Proof.RefRun
import proofs.«174049_j50079318671420_1_alg».proof.Proof.RefRead
import proofs.«174049_j50079318671420_1_alg».proof.Proof.KernelRun
import proofs.«174049_j50079318671420_1_alg».proof.Proof.StageFinal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, with its result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs run, and the kernel program's result — the contents of its
    result buffer at the last segment boundary — is the reference's composed term of the arguments. -/
theorem algebraic : Cert.algebraic_KernelIdeal_ReferenceIdeal := by
  intro m ρ m' ρ' _ hagree
  refine ⟨fun c => Cert.KernelIdeal.Gen.W21 m ρ c (Proc.devRef .tc Cert.KernelIdeal.main_v146),
    Cert.KernelIdeal.Gen.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16⟩ := hagree c
  rw [Cert.ReferenceIdeal.ReadP.val_main_v167_eq, h0, h1, h2, h3, h4, h5, h6, h7, h8, h9, h10, h11, h12, h13, h14, h15, h16]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
